-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128 .f32) (main_arg6 : FVec F S64x128 .f32) (main_arg7 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S64x128 .f32 := Host.absf main_arg6
  let main_cst_8 : FVec F S_ .f32 := constant S_ .f32 0x7F800000#32
  let main_v25 : FVec F S64x128 .f32 := broadcastInDim S64x128 ![] bcast_S_S64x128 main_cst_8
  let main_v26 : IVec S64x128 1 := cmpf .olt main_v24 main_v25
  let main_c_9 : IVec S_ 1 := constantI S_ 1 1#1
  let main_v27 : IVec S_ 1 := (fun x v => Host.reduce IntOp.andi x v reducesTo_S64x128_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) (main_arg6 : FVec F S64x128 .f32) (main_arg7 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S5000x128 : Shape := ⟨2, ![5000, 128]⟩
abbrev S850000x128 : Shape := ⟨2, ![850000, 128]⟩
abbrev S1x128 : Shape := ⟨2, ![1, 128]⟩
abbrev S1x64 : Shape := ⟨2, ![1, 64]⟩
abbrev S50000x64 : Shape := ⟨2, ![50000, 64]⟩
abbrev S5000x64 : Shape := ⟨2, ![5000, 64]⟩
abbrev S128x64 : Shape := ⟨2, ![128, 64]⟩

abbrev nBuf : Space → Nat
  | .hbm => 88
  | .vmem => 26
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S64x128, .f32⟩
  | .hbm, ⟨7, _⟩ => ⟨S64, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S50000, .i32⟩
  | .hbm, ⟨13, _⟩ => ⟨S850000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000, .f32⟩
  | .hbm, ⟨38, _⟩ => ⟨S_, .i32⟩
  | .hbm, ⟨39, _⟩ => ⟨S850000, .i32⟩
  | .hbm, ⟨40, _⟩ => ⟨S850000, .i1⟩
  | .hbm, ⟨41, _⟩ => ⟨S_, .i32⟩
  | .hbm, ⟨42, _⟩ => ⟨S850000, .i32⟩
  | .hbm, ⟨43, _⟩ => ⟨S850000, .i32⟩
  | .hbm, ⟨44, _⟩ => ⟨S850000, .i32⟩
  | .hbm, ⟨45, _⟩ => ⟨S850000x1, .i32⟩
  | .hbm, ⟨46, _⟩ => ⟨S850000, .f32⟩
  | .hbm, ⟨47, _⟩ => ⟨S850000, .f32⟩
  | .hbm, ⟨48, _⟩ => ⟨S50000x128, .f32⟩
  | .hbm, ⟨49, _⟩ => ⟨S_, .i32⟩
  | .hbm, ⟨50, _⟩ => ⟨S850000, .i32⟩
  | .hbm, ⟨51, _⟩ => ⟨S850000, .i1⟩
  | .hbm, ⟨52, _⟩ => ⟨S_, .i32⟩
  | .hbm, ⟨53, _⟩ => ⟨S850000, .i32⟩
  | .hbm, ⟨54, _⟩ => ⟨S850000, .i32⟩
  | .hbm, ⟨55, _⟩ => ⟨S850000, .i32⟩
  | .hbm, ⟨56, _⟩ => ⟨S850000x1, .i32⟩
  | .hbm, ⟨57, _⟩ => ⟨S850000x128, .f32⟩
  | .hbm, ⟨58, _⟩ => ⟨S850000x1, .f32⟩
  | .hbm, ⟨59, _⟩ => ⟨S850000x128, .f32⟩
  | .hbm, ⟨60, _⟩ => ⟨S850000x128, .f32⟩
  | .hbm, ⟨61, _⟩ => ⟨S_, .f32⟩
  | .hbm, ⟨62, _⟩ => ⟨S50000x128, .f32⟩
  | .hbm, ⟨63, _⟩ => ⟨S850000x1, .i32⟩
  | .hbm, ⟨64, _⟩ => ⟨S50000x128, .f32⟩
  | .hbm, ⟨65, _⟩ => ⟨S1x128, .f32⟩
  | .hbm, ⟨66, _⟩ => ⟨S50000x128, .f32⟩
  | .hbm, ⟨67, _⟩ => ⟨S50000x128, .f32⟩
  | .hbm, ⟨68, _⟩ => ⟨S_, .i32⟩
  | .hbm, ⟨69, _⟩ => ⟨S850000, .i32⟩
  | .hbm, ⟨70, _⟩ => ⟨S850000, .i1⟩
  | .hbm, ⟨71, _⟩ => ⟨S_, .i32⟩
  | .hbm, ⟨72, _⟩ => ⟨S850000, .i32⟩
  | .hbm, ⟨73, _⟩ => ⟨S850000, .i32⟩
  | .hbm, ⟨74, _⟩ => ⟨S850000, .i32⟩
  | .hbm, ⟨75, _⟩ => ⟨S850000x1, .i32⟩
  | .hbm, ⟨76, _⟩ => ⟨S850000x128, .f32⟩
  | .hbm, ⟨77, _⟩ => ⟨S850000x1, .f32⟩
  | .hbm, ⟨78, _⟩ => ⟨S850000x128, .f32⟩
  | .hbm, ⟨79, _⟩ => ⟨S850000x128, .f32⟩
  | .hbm, ⟨80, _⟩ => ⟨S_, .f32⟩
  | .hbm, ⟨81, _⟩ => ⟨S50000x128, .f32⟩
  | .hbm, ⟨82, _⟩ => ⟨S850000x1, .i32⟩
  | .hbm, ⟨83, _⟩ => ⟨S50000x128, .f32⟩
  | .hbm, ⟨84, _⟩ => ⟨S1x128, .f32⟩
  | .hbm, ⟨85, _⟩ => ⟨S50000x128, .f32⟩
  | .hbm, ⟨86, _⟩ => ⟨S1x64, .f32⟩
  | .hbm, ⟨87, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S64x128, .f32⟩
  | .local _ .vmem, ⟨23, _⟩ => ⟨S1x64, .f32⟩
  | .local _ .vmem, ⟨24, _⟩ => ⟨S5000x64, .f32⟩
  | .local _ .vmem, ⟨25, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_c_9 : Ref sig .tc := ⟨.hbm, 68, rfl⟩
abbrev main_v47 : Ref sig .tc := ⟨.hbm, 69, rfl⟩
abbrev main_v48 : Ref sig .tc := ⟨.hbm, 70, rfl⟩
abbrev main_c_10 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_11 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg3_0 : Ref sig .tc := ⟨.vmem, 24, rfl⟩
abbrev cc4_stg3_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem3_0 : DmaSem sig := 24
abbrev cc4_sem3_1 : DmaSem sig := 25

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S64_S1x64 : S64.ShapeCasts S1x64
  inb_S64x128_S64x128_0_0 : ∀ a, (![0, 0] : Fin 2 → Nat) a + S64x128.size a ≤ S64x128.size a
  h_S64x128 : 0 < S64x128.numel
  transposes_S64x128_p1_0_S128x64 : S64x128.Transposes [1, 0] S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x128.size a ≤ S64x128.size a
  hwx4_1 : ∀ i : grid4.Coords, EltTy.bits .f32 = 32 ∨ (Rect.block (s := S64x128) S64x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x64.size a ≤ S50000x64.size a
  hwx4_3 : ∀ i : grid4.Coords, EltTy.bits .f32 = 32 ∨ (Rect.block (s := S50000x64) S5000x64.size (cc4_transform_3 i) (hinb4_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v61) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S64x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v62) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v63) S5000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S128x64 : Shape := ⟨2, ![128, 64]⟩
abbrev S50000x64 : Shape := ⟨2, ![50000, 64]⟩
abbrev S1x64 : Shape := ⟨2, ![1, 64]⟩

abbrev nBuf : Space → Nat
  | .hbm => 140
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128x128, .f32⟩
  | 5 => ⟨S128, .f32⟩
  | 6 => ⟨S64x128, .f32⟩
  | 7 => ⟨S64, .f32⟩
  | 8 => ⟨S1x800000, .i32⟩
  | 9 => ⟨S800000, .i32⟩
  | 10 => ⟨S1x800000, .i32⟩
  | 11 => ⟨S800000, .i32⟩
  | 12 => ⟨S128x128, .f32⟩
  | 13 => ⟨S50000x128, .f32⟩
  | 14 => ⟨S50000, .i32⟩
  | 15 => ⟨S850000, .i32⟩
  | 16 => ⟨S850000, .i32⟩
  | 17 => ⟨S_, .f32⟩
  | 18 => ⟨S850000, .f32⟩
  | 19 => ⟨S_, .f32⟩
  | 20 => ⟨S50000, .f32⟩
  | 21 => ⟨S850000x1, .i32⟩
  | 22 => ⟨S50000, .f32⟩
  | 23 => ⟨S_, .f32⟩
  | 24 => ⟨S50000, .f32⟩
  | 25 => ⟨S50000, .i1⟩
  | 26 => ⟨S50000, .f32⟩
  | 27 => ⟨S_, .f32⟩
  | 28 => ⟨S_, .f32⟩
  | 29 => ⟨S50000, .f32⟩
  | 30 => ⟨S50000, .f32⟩
  | 31 => ⟨S_, .i32⟩
  | 32 => ⟨S850000, .i32⟩
  | 33 => ⟨S850000, .i1⟩
  | 34 => ⟨S_, .i32⟩
  | 35 => ⟨S850000, .i32⟩
  | 36 => ⟨S850000, .i32⟩
  | 37 => ⟨S850000, .i32⟩
  | 38 => ⟨S850000x1, .i32⟩
  | 39 => ⟨S850000, .f32⟩
  | 40 => ⟨S_, .i32⟩
  | 41 => ⟨S850000, .i32⟩
  | 42 => ⟨S850000, .i1⟩
  | 43 => ⟨S_, .i32⟩
  | 44 => ⟨S850000, .i32⟩
  | 45 => ⟨S850000, .i32⟩
  | 46 => ⟨S850000, .i32⟩
  | 47 => ⟨S850000x1, .i32⟩
  | 48 => ⟨S850000, .f32⟩
  | 49 => ⟨S850000, .f32⟩
  | 50 => ⟨S_, .i32⟩
  | 51 => ⟨S850000, .i32⟩
  | 52 => ⟨S850000, .i1⟩
  | 53 => ⟨S_, .i32⟩
  | 54 => ⟨S850000, .i32⟩
  | 55 => ⟨S850000, .i32⟩
  | 56 => ⟨S850000, .i32⟩
  | 57 => ⟨S850000x1, .i32⟩
  | 58 => ⟨S850000x128, .f32⟩
  | 59 => ⟨S850000x1, .f32⟩
  | 60 => ⟨S850000x128, .f32⟩
  | 61 => ⟨S850000x128, .f32⟩
  | 62 => ⟨S_, .f32⟩
  | 63 => ⟨S50000x128, .f32⟩
  | 64 => ⟨S850000x1, .i32⟩
  | 65 => ⟨S50000x128, .f32⟩
  | 66 => ⟨S1x128, .f32⟩
  | 67 => ⟨S50000x128, .f32⟩
  | 68 => ⟨S50000x128, .f32⟩
  | 69 => ⟨S_, .f32⟩
  | 70 => ⟨S50000x128, .f32⟩
  | 71 => ⟨S50000x128, .f32⟩
  | 72 => ⟨S128x128, .f32⟩
  | 73 => ⟨S50000x128, .f32⟩
  | 74 => ⟨S50000, .i32⟩
  | 75 => ⟨S850000, .i32⟩
  | 76 => ⟨S850000, .i32⟩
  | 77 => ⟨S_, .f32⟩
  | 78 => ⟨S850000, .f32⟩
  | 79 => ⟨S_, .f32⟩
  | 80 => ⟨S50000, .f32⟩
  | 81 => ⟨S850000x1, .i32⟩
  | 82 => ⟨S50000, .f32⟩
  | 83 => ⟨S_, .f32⟩
  | 84 => ⟨S50000, .f32⟩
  | 85 => ⟨S50000, .i1⟩
  | 86 => ⟨S50000, .f32⟩
  | 87 => ⟨S_, .f32⟩
  | 88 => ⟨S_, .f32⟩
  | 89 => ⟨S50000, .f32⟩
  | 90 => ⟨S50000, .f32⟩
  | 91 => ⟨S_, .i32⟩
  | 92 => ⟨S850000, .i32⟩
  | 93 => ⟨S850000, .i1⟩
  | 94 => ⟨S_, .i32⟩
  | 95 => ⟨S850000, .i32⟩
  | 96 => ⟨S850000, .i32⟩
  | 97 => ⟨S850000, .i32⟩
  | 98 => ⟨S850000x1, .i32⟩
  | 99 => ⟨S850000, .f32⟩
  | 100 => ⟨S_, .i32⟩
  | 101 => ⟨S850000, .i32⟩
  | 102 => ⟨S850000, .i1⟩
  | 103 => ⟨S_, .i32⟩
  | 104 => ⟨S850000, .i32⟩
  | 105 => ⟨S850000, .i32⟩
  | 106 => ⟨S850000, .i32⟩
  | 107 => ⟨S850000x1, .i32⟩
  | 108 => ⟨S850000, .f32⟩
  | 109 => ⟨S850000, .f32⟩
  | 110 => ⟨S_, .i32⟩
  | 111 => ⟨S850000, .i32⟩
  | 112 => ⟨S850000, .i1⟩
  | 113 => ⟨S_, .i32⟩
  | 114 => ⟨S850000, .i32⟩
  | 115 => ⟨S850000, .i32⟩
  | 116 => ⟨S850000, .i32⟩
  | 117 => ⟨S850000x1, .i32⟩
  | 118 => ⟨S850000x128, .f32⟩
  | 119 => ⟨S850000x1, .f32⟩
  | 120 => ⟨S850000x128, .f32⟩
  | 121 => ⟨S850000x128, .f32⟩
  | 122 => ⟨S_, .f32⟩
  | 123 => ⟨S50000x128, .f32⟩
  | 124 => ⟨S850000x1, .i32⟩
  | 125 => ⟨S50000x128, .f32⟩
  | 126 => ⟨S1x128, .f32⟩
  | 127 => ⟨S50000x128, .f32⟩
  | _ => ⟨S50000x128, .f32⟩

abbrev hbmTy0_1 (i : Nat) : BufTy := match i % 128 with
  | 0 => ⟨S50000x128, .f32⟩
  | 1 => ⟨S_, .f32⟩
  | 2 => ⟨S50000x128, .f32⟩
  | 3 => ⟨S50000x128, .f32⟩
  | 4 => ⟨S128x64, .f32⟩
  | 5 => ⟨S50000x64, .f32⟩
  | 6 => ⟨S1x64, .f32⟩
  | 7 => ⟨S50000x64, .f32⟩
  | 8 => ⟨S50000x64, .f32⟩
  | 9 => ⟨S_, .f32⟩
  | 10 => ⟨S50000x64, .f32⟩
  | 11 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v16 : Ref sig .tc := ⟨.hbm, 30, rfl⟩
abbrev main_c : Ref sig .tc := ⟨.hbm, 31, rfl⟩
abbrev main_v17 : Ref sig .tc := ⟨.hbm, 32, rfl⟩
abbrev main_v18 : Ref sig .tc := ⟨.hbm, 33, rfl⟩
abbrev main_c_3 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_4 : Ref sig .tc := ⟨.hbm, 40, rfl⟩
abbrev main_v24 : Ref sig .tc := ⟨.hbm, 41, rfl⟩
abbrev main_v25 : Ref sig .tc := ⟨.hbm, 42, rfl⟩
abbrev main_c_5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_8 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_call1_cst : Ref sig .tc := ⟨.hbm, 69, rfl⟩
abbrev main_call1_v0 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_9 : Ref sig .tc := ⟨.hbm, 77, rfl⟩
abbrev main_v54 : Ref sig .tc := ⟨.hbm, 78, rfl⟩
abbrev main_cst_10 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_11 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_12 : Ref sig .tc := ⟨.hbm, 87, rfl⟩
abbrev main_call2_v0 : Ref sig .tc := ⟨.hbm, 88, rfl⟩
abbrev main_call2_v1 : Ref sig .tc := ⟨.hbm, 89, rfl⟩
abbrev main_v61 : Ref sig .tc := ⟨.hbm, 90, rfl⟩
abbrev main_c_13 : Ref sig .tc := ⟨.hbm, 91, rfl⟩
abbrev main_v62 : Ref sig .tc := ⟨.hbm, 92, rfl⟩
abbrev main_v63 : Ref sig .tc := ⟨.hbm, 93, rfl⟩
abbrev main_c_14 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_c_15 : Ref sig .tc := ⟨.hbm, 100, rfl⟩
abbrev main_v69 : Ref sig .tc := ⟨.hbm, 101, rfl⟩
abbrev main_v70 : Ref sig .tc := ⟨.hbm, 102, rfl⟩
abbrev main_c_16 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_c_17 : Ref sig .tc := ⟨.hbm, 110, rfl⟩
abbrev main_v77 : Ref sig .tc := ⟨.hbm, 111, rfl⟩
abbrev main_v78 : Ref sig .tc := ⟨.hbm, 112, rfl⟩
abbrev main_c_18 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_cst_19 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_call3_cst : Ref sig .tc := ⟨.hbm, 129, rfl⟩
abbrev main_call3_v0 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_call4_cst : Ref sig .tc := ⟨.hbm, 137, rfl⟩
abbrev main_call4_v0 : Ref sig .tc := ⟨.hbm, 138, rfl⟩
abbrev main_v99 : Ref sig .tc := ⟨.hbm, 139, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  transposes_S128x128_S128x128_1_0 : S128x128.Transposes [1, 0] S128x128
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  transposes_S64x128_S128x64_1_0 : S64x128.Transposes [1, 0] S128x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  dot_S50000x128_S128x128_S50000x128_1_0_0_1_n_n_wf : DotDims.WF S50000x128 S128x128 S50000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.KernelRun.lean ====
/-
  The idealized kernel's run with its result array named: every weakly fair execution of @main terminates without a
  fault, and on every core the result array ends at what the last region's write-backs leave of it (the contents at the
  last segment boundary, read at the result's reference), the eight argument arrays as launched.  The run is the
  library's launch over @main's eleven segments; only the final state's reading is stated for one more buffer here.
-/
import proofs.«120317_j21406117003578_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, the result array read off the last boundary's contents. -/
theorem run_named : θ_run defs (onTc (τ := τ) (main (F := F))) ⟨m, fun _ => 0, ρ⟩ (fun r => ∀ c : Dev nD,
      r.2.mem ((c.tc : Thread nD τ).loc main_v63) = W11 m ρ c (Proc.devRef .tc main_v63)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v63 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c)⟩)

end Cert.KernelIdeal.Hand

end
-- ==== Proof.Spec.lean ====
/-
  What both programs compute, as one function of the argument arrays on the extended reals.

  A graph on 50000 nodes is given by 800000 directed edges (row 0 of the edge table the sources, row 1 the
  targets); every node gets one self loop in addition, so there are 850000 edge ends on each side.  The degree of
  a node is the number of edge ends that point at it, `dinv` is its inverse square root where the degree is
  positive and zero elsewhere, and the weight of an edge is `dinv` at its source times `dinv` at its target.
  One graph convolution multiplies the node features by a weight matrix transposed, adds into each node the
  weighted feature rows of the sources of the edges pointing at it, adds a bias and clamps at zero.  The
  network is two such convolutions followed by one dense layer with bias and the same clamp.

  The gathers and the scatter-additions are never opened in this certificate: both programs apply them to the
  same operands, so they are carried as they stand.
-/
import proofs.«120317_j21406117003578_1_alg».proof.Proof.Gen.ReferenceIdeal
import Idealize.ShloMosaic.PureOps.Ideal
import Idealize.ShloMosaic.Lib.ValueIdx

noncomputable section

namespace Cert.Spec

open Idealize.ShloMosaic Cert.ReferenceIdeal Cert.ReferenceIdeal.Gen

/-- The sources of the 850000 edge ends: row 0 of the edge table, then the nodes themselves. -/
def srcIdx (ei : IVec S2x800000 32) : IVec S850000 32 :=
  concatenate S850000 0 [⟨S800000, (shapeCast _ (extractStridedSlice S1x800000 ![0, 0] ei slices_S2x800000_S1x800000_0_0) shapeCasts_S1x800000_S800000)⟩, ⟨S50000, (iotaInDim S50000 32 0)⟩] concatenates_S800000_S50000_S850000_d0

/-- The targets of the 850000 edge ends: row 1 of the edge table, then the nodes themselves. -/
def dstIdx (ei : IVec S2x800000 32) : IVec S850000 32 :=
  concatenate S850000 0 [⟨S800000, (shapeCast _ (extractStridedSlice S1x800000 ![1, 0] ei slices_S2x800000_S1x800000_1_0) shapeCasts_S1x800000_S800000)⟩, ⟨S50000, (iotaInDim S50000 32 0)⟩] concatenates_S800000_S50000_S850000_d0

/-- A negative node number counted from the end (the row lookup's convention). -/
def wrap (v : IVec S850000 32) : IVec S850000 32 :=
  select (cmpi .slt v (broadcastInDim S850000 ![] bcast_S_S850000 (constantI S_ 32 0#32))) (addi v (broadcastInDim S850000 ![] bcast_S_S850000 (constantI S_ 32 50000#32))) v

/-- A vector of edge data laid out as one column. -/
def col {α : Type} (v : S850000.Idx → α) : S850000x1.Idx → α :=
  broadcastInDim S850000x1 ![0] bcast_S850000_S850000x1_0 v

/-- The degree of every node: a one added at the target of every edge end. -/
def deg (d : IVec S850000 32) : FVec Ideal S50000 .f32 :=
  Host.scatterAdd scatter_S50000_S850000x1_S850000_n_0_0_1 (broadcastInDim S50000 ![] bcast_S_S50000 (constant (F := Ideal) S_ .f32 0x00000000#32)) (col d) (broadcastInDim S850000 ![] bcast_S_S850000 (constant (F := Ideal) S_ .f32 0x3F800000#32))

/-- A mask's choice between a vector and a constant, the constant given as a rank-0 array. -/
def dinvOf (mask : IVec S50000 1) (rs : FVec Ideal S50000 .f32) (z : FVec Ideal S_ .f32) : FVec Ideal S50000 .f32 :=
  select mask rs (broadcastInDim S50000 ![] bcast_S_S50000 (id z))

/-- The inverse square root of the degree where it is positive, zero elsewhere. -/
def dinv (d : IVec S850000 32) : FVec Ideal S50000 .f32 :=
  dinvOf (cmpf .ogt (deg d) (broadcastInDim S50000 ![] bcast_S_S50000 (constant (F := Ideal) S_ .f32 0x00000000#32))) (Host.rsqrt (deg d)) (constant (F := Ideal) S_ .f32 0x00000000#32)

/-- The weight of every edge end from a vector of node factors: the factor at its source times the factor at its target. -/
def normOf (dv : FVec Ideal S50000 .f32) (s d : IVec S850000 32) : FVec Ideal S850000 .f32 :=
  mulf (Host.gather gather_S50000_S850000x1_S850000_n_0_n_n_0_1_1 dv (col (wrap s))) (Host.gather gather_S50000_S850000x1_S850000_n_0_n_n_0_1_1 dv (col (wrap d)))

/-- The weight of every edge end: `dinv` at its source times `dinv` at its target. -/
def norm (s d : IVec S850000 32) : FVec Ideal S850000 .f32 :=
  normOf (dinv d) s d

/-- The aggregation: into every node the weighted feature rows of the sources of the edge ends pointing at it. -/
def agg (s d : IVec S850000 32) (w : FVec Ideal S850000 .f32) (H : FVec Ideal S50000x128 .f32) : FVec Ideal S50000x128 .f32 :=
  Host.scatterAdd scatter_S50000x128_S850000x1_S850000x128_1_0_0_1 (broadcastInDim S50000x128 ![] bcast_S_S50000x128 (constant (F := Ideal) S_ .f32 0x00000000#32)) (col d) (mulf (Host.gather gather_S50000x128_S850000x1_S850000x128_1_0_n_n_0_1_1128 H (col (wrap s))) (broadcastInDim S850000x128 ![0, 1] bcast_S850000x1_S850000x128_0_1 (col w)))

/-- A bias added along the rows, then the clamp at zero. -/
def biasRelu (A : FVec Ideal S50000x128 .f32) (b : FVec Ideal S128 .f32) : FVec Ideal S50000x128 .f32 :=
  maximumf (addf A (broadcastInDim S50000x128 ![0, 1] bcast_S1x128_S50000x128_0_1 (broadcastInDim S1x128 ![1] bcast_S128_S1x128_1 b))) (broadcastInDim S50000x128 ![] bcast_S_S50000x128 (constant (F := Ideal) S_ .f32 0x00000000#32))

/-- The node features times a square weight matrix transposed. -/
def dense (X : FVec Ideal S50000x128 .f32) (W : FVec Ideal S128x128 .f32) : FVec Ideal S50000x128 .f32 :=
  Host.dotGeneral dot_S50000x128_S128x128_S50000x128_1_0_0_1_n_n none X (transpose S128x128 [1, 0] W transposes_S128x128_S128x128_1_0)

/-- The last layer: the features times the 64-row weight matrix transposed, a bias along the rows, the clamp. -/
def head (X : FVec Ideal S50000x128 .f32) (Wp : FVec Ideal S64x128 .f32) (bp : FVec Ideal S64 .f32) : FVec Ideal S50000x64 .f32 :=
  maximumf (addf (Host.dotGeneral dot_S50000x128_S128x64_S50000x64_1_0_0_1_n_n none X (transpose S128x64 [1, 0] Wp transposes_S64x128_S128x64_1_0)) (broadcastInDim S50000x64 ![0, 1] bcast_S1x64_S50000x64_0_1 (broadcastInDim S1x64 ![1] bcast_S64_S1x64_1 bp))) (broadcastInDim S50000x64 ![] bcast_S_S50000x64 (constant (F := Ideal) S_ .f32 0x00000000#32))

/-- The bias-and-clamp with the bias given as a [1, 128] array (what a region is handed): entry (r, q) is the entry of
    `A` plus the bias row's entry q, clamped at the zero word. -/
def biasReluRow (A : FVec Ideal S50000x128 .f32) (B : FVec Ideal S1x128 .f32) : FVec Ideal S50000x128 .f32 :=
  fun i => max (A i + B (ValueIdx.ix2 (0 : Fin 1) (i 1))) (Ideal.ofBits .f32 0x00000000#32)

/-- The last layer with the bias given as a [1, 64] array: entry (r, q) is the sum over k of the features' entry (r, k)
    times the weight's entry (q, k), plus the bias row's entry q, clamped at the zero word. -/
def headRow (X : FVec Ideal S50000x128 .f32) (Wp : FVec Ideal S64x128 .f32) (B : FVec Ideal S1x64 .f32) : FVec Ideal S50000x64 .f32 :=
  fun i => max ((∑ k : Fin 128, X (ValueIdx.ix2 (i 0) k) * Wp (ValueIdx.ix2 (i 1) k)) + B (ValueIdx.ix2 (0 : Fin 1) (i 1))) (Ideal.ofBits .f32 0x00000000#32)

/-- One graph convolution with its clamp. -/
def layer (ei : IVec S2x800000 32) (X : FVec Ideal S50000x128 .f32) (W : FVec Ideal S128x128 .f32) (b : FVec Ideal S128 .f32) :
    FVec Ideal S50000x128 .f32 :=
  biasRelu (agg (srcIdx ei) (dstIdx ei) (norm (srcIdx ei) (dstIdx ei)) (dense X W)) b

/-- The network. -/
def out (x : FVec Ideal S50000x128 .f32) (ei : IVec S2x800000 32) (W1 : FVec Ideal S128x128 .f32) (b1 : FVec Ideal S128 .f32)
    (W2 : FVec Ideal S128x128 .f32) (b2 : FVec Ideal S128 .f32) (Wp : FVec Ideal S64x128 .f32) (bp : FVec Ideal S64 .f32) :
    FVec Ideal S50000x64 .f32 :=
  head (layer ei (layer ei x W1 b1) W2 b2) Wp bp

end Cert.Spec

end
-- ==== Proof.LibDot.lean ====
/-
  A matrix product with one contracted axis, read at an entry: the sum over the contraction index of a
  dimension-numbers record is the sum over `k : Fin K` of row entry `(r, k)` times column entry `(k, c)`,
  for rank-two operands [M, K] × [K, N] → [M, N] whose record contracts axis 1 of the left operand with
  axis 0 of the right one. The four coordinate facts about the record's operand indices are hypotheses; for a
  record with literal dimension lists each is `fun _ _ => rfl` or the library's single-axis lemma. The kernel's
  product into a zero accumulator (`matmul_ix2`) and the host's product (`dotGeneral_ix2`) are both that sum.
-/
import Mathlib
import Idealize.ShloMosaic.Lib.ValueIdx
import Idealize.ShloMosaic.PureOps.Ideal.Laws

namespace Cert.LibDot

open Idealize.ShloMosaic Idealize.ShloMosaic.ValueIdx

/-- The coordinate facts of a plain rows-by-columns product's dimension numbers. -/
structure Plain {M K N : Nat} (d : DotDims ⟨2, ![M, K]⟩ ⟨2, ![K, N]⟩ ⟨2, ![M, N]⟩) : Prop where
  hrank : d.contr.rank = 1
  hs : d.contr.size ⟨0, by omega⟩ = K
  hl0 : ∀ j k, (d.lhsIdx j k 0).val = (j 0).val
  hl1 : ∀ j k, (d.lhsIdx j k 1).val = (k ⟨0, by omega⟩).val
  hr0 : ∀ j k, (d.rhsIdx j k 0).val = (k ⟨0, by omega⟩).val
  hr1 : ∀ j k, (d.rhsIdx j k 1).val = (j 1).val

theorem dot_sum {M K N : Nat} {d : DotDims ⟨2, ![M, K]⟩ ⟨2, ![K, N]⟩ ⟨2, ![M, N]⟩} (hd : Plain d)
    (lhs : (⟨2, ![M, K]⟩ : Shape).Idx → EReal) (rhs : (⟨2, ![K, N]⟩ : Shape).Idx → EReal)
    (r : Fin M) (c : Fin N) :
    ∑ k : d.contr.Idx, lhs (d.lhsIdx (ix2 r c) k) * rhs (d.rhsIdx (ix2 r c) k)
      = ∑ k : Fin K, lhs (ix2 r k) * rhs (ix2 k c) := by
  rw [← Equiv.sum_comp (contrEquiv1 d K hd.hrank hd.hs).symm]
  refine Finset.sum_congr rfl fun k _ => ?_
  have e := contrEquiv1_symm_val d K hd.hrank hd.hs k
  have el : d.lhsIdx (ix2 r c) ((contrEquiv1 d K hd.hrank hd.hs).symm k) = ix2 r k := by
    funext a; apply Fin.ext
    match a with
    | ⟨0, _⟩ => exact hd.hl0 _ _
    | ⟨1, _⟩ => exact (hd.hl1 _ _).trans e
  have er : d.rhsIdx (ix2 r c) ((contrEquiv1 d K hd.hrank hd.hs).symm k) = ix2 k c := by
    funext a; apply Fin.ext
    match a with
    | ⟨0, _⟩ => exact (hd.hr0 _ _).trans e
    | ⟨1, _⟩ => exact hd.hr1 _ _
  rw [el, er]

/-- The kernel's matrix product into a zero accumulator, at entry (r, c). -/
theorem matmul_ix2 {M K N : Nat} {d : DotDims ⟨2, ![M, K]⟩ ⟨2, ![K, N]⟩ ⟨2, ![M, N]⟩} (hd : Plain d)
    {φ₁ φ₂ : FTy} (prec : Option ContractPrecision) (a : FVec Ideal ⟨2, ![M, K]⟩ φ₁) (b : FVec Ideal ⟨2, ![K, N]⟩ φ₂)
    (r : Fin M) (c : Fin N) :
    matmul d prec a b (constant ⟨2, ![M, N]⟩ .f32 0x00000000#32) (ix2 r c) = ∑ k : Fin K, a (ix2 r k) * b (ix2 k c) :=
  (Ideal.matmul_constant_zero_apply d prec a b (ix2 r c)).trans (dot_sum hd a b r c)

/-- The host's matrix product, at entry (r, c). -/
theorem dotGeneral_ix2 {M K N : Nat} {d : DotDims ⟨2, ![M, K]⟩ ⟨2, ![K, N]⟩ ⟨2, ![M, N]⟩} (hd : Plain d)
    {φ₁ φ₂ : FTy} (prec : Option ContractPrecision) (a : FVec Ideal ⟨2, ![M, K]⟩ φ₁) (b : FVec Ideal ⟨2, ![K, N]⟩ φ₂)
    (r : Fin M) (c : Fin N) :
    Host.dotGeneral d prec a b (ix2 r c) = ∑ k : Fin K, a (ix2 r k) * b (ix2 k c) :=
  (Ideal.dotGeneral_apply d prec _ a b (ix2 r c)).trans (dot_sum hd a b r c)

end Cert.LibDot
-- ==== Proof.Payload.lean ====
/-
  The arithmetic of the three kernel bodies and of the specification's dense layers, read at one entry.

  A block of 5000 node rows times the weight matrix transposed is, at entry (p, q), the sum over k of the block's
  entry (p, k) times the weight's entry (q, k): the body transposes the weight and multiplies into a zero accumulator,
  and rounding the operands to a shorter format changes nothing on the extended reals.  The bias body adds row 0 of a
  [1, 128] array to every row and clamps at the zero word.  The last body does both.  The specification's dense
  layers and its bias-and-clamp are the same sums and the same maxima over all 50000 rows.
-/
import proofs.«120317_j21406117003578_1_alg».proof.Proof.Gen.KernelIdeal.Skeleton
import proofs.«120317_j21406117003578_1_alg».proof.Proof.Spec
import proofs.«120317_j21406117003578_1_alg».proof.Proof.LibDot
import Idealize.ShloMosaic.Lib.ValueIdx
import Idealize.ShloMosaic.Lib.ValueLayout
import Idealize.ShloMosaic.Lib.Pipeline.Value

noncomputable section

namespace Cert.Hand

open Idealize.ShloMosaic Idealize.ShloMosaic.ValueIdx

/-! ## The four products' dimension numbers are those of a plain rows-by-columns product -/

theorem plain_k128 : Cert.LibDot.Plain (M := 5000) (K := 128) (N := 128) Cert.KernelIdeal.dot_S5000x128_S128x128_S5000x128_1_0_0_1_n_n where
  hrank := rfl
  hs := rfl
  hl0 := fun _ _ => rfl
  hl1 := fun j k => DotDims.lhsIdx_val_of_single _ (cl := 1) rfl j k
  hr0 := fun j k => DotDims.rhsIdx_val_of_single _ (cr := 0) rfl j k
  hr1 := fun _ _ => rfl

theorem plain_k64 : Cert.LibDot.Plain (M := 5000) (K := 128) (N := 64) Cert.KernelIdeal.dot_S5000x128_S128x64_S5000x64_1_0_0_1_n_n where
  hrank := rfl
  hs := rfl
  hl0 := fun _ _ => rfl
  hl1 := fun j k => DotDims.lhsIdx_val_of_single _ (cl := 1) rfl j k
  hr0 := fun j k => DotDims.rhsIdx_val_of_single _ (cr := 0) rfl j k
  hr1 := fun _ _ => rfl

theorem plain_r128 : Cert.LibDot.Plain (M := 50000) (K := 128) (N := 128) Cert.ReferenceIdeal.dot_S50000x128_S128x128_S50000x128_1_0_0_1_n_n where
  hrank := rfl
  hs := rfl
  hl0 := fun _ _ => rfl
  hl1 := fun j k => DotDims.lhsIdx_val_of_single _ (cl := 1) rfl j k
  hr0 := fun j k => DotDims.rhsIdx_val_of_single _ (cr := 0) rfl j k
  hr1 := fun _ _ => rfl

theorem plain_r64 : Cert.LibDot.Plain (M := 50000) (K := 128) (N := 64) Cert.ReferenceIdeal.dot_S50000x128_S128x64_S50000x64_1_0_0_1_n_n where
  hrank := rfl
  hs := rfl
  hl0 := fun _ _ => rfl
  hl1 := fun j k => DotDims.lhsIdx_val_of_single _ (cl := 1) rfl j k
  hr0 := fun j k => DotDims.rhsIdx_val_of_single _ (cr := 0) rfl j k
  hr1 := fun _ _ => rfl

/-! ## The kernel bodies at an entry -/

section Bodies

open Cert.KernelIdeal Cert.KernelIdeal.Gen

/-- The first linear body: entry (p, q) is the sum over k of block entry (p, k) times weight entry (q, k). -/
theorem lin0_entry (x0 : Vec Ideal S5000x128 .f32) (x1 : Vec Ideal S128x128 .f32) (p : Fin 5000) (q : Fin 128) :
    k0_pay1 (F := Ideal) x0 x1 (ix2 p q) = ∑ k : Fin 128, x0 (ix2 p k) * x1 (ix2 q k) := by
  unfold k0_pay1
  refine (Cert.LibDot.matmul_ix2 plain_k128 none (truncf .bf16 x0 bitsLt_bf16_f32)
    (transpose S128x128 [1, 0] (truncf .bf16 x1 bitsLt_bf16_f32) transposes_S128x128_p1_0_S128x128) p q).trans ?_
  refine Finset.sum_congr rfl fun k _ => ?_
  rw [transpose_ix2_apply]
  rfl

/-- The second linear body: the same sum (its block passes through a cast to its own shape first). -/
theorem lin2_entry (x0 : Vec Ideal S5000x128 .f32) (x1 : Vec Ideal S128x128 .f32) (p : Fin 5000) (q : Fin 128) :
    k2_pay1 (F := Ideal) x0 x1 (ix2 p q) = ∑ k : Fin 128, x0 (ix2 p k) * x1 (ix2 q k) := by
  unfold k2_pay1
  refine (Cert.LibDot.matmul_ix2 plain_k128 none (truncf .bf16 (shapeCast S5000x128 x0 shapeCasts_S5000x128_S5000x128) bitsLt_bf16_f32)
    (transpose S128x128 [1, 0] (truncf .bf16 x1 bitsLt_bf16_f32) transposes_S128x128_p1_0_S128x128) p q).trans ?_
  refine Finset.sum_congr rfl fun k _ => ?_
  rw [transpose_ix2_apply, truncf_apply, shapeCast_self]
  rfl

/-- The bias body: entry (p, q) is the block's entry plus the bias row's entry q, clamped at the zero word. -/
theorem bias1_entry (x0 : Vec Ideal S5000x128 .f32) (x1 : Vec Ideal S1x128 .f32) (p : Fin 5000) (q : Fin 128) :
    k1_pay1 (F := Ideal) x0 x1 (ix2 p q) = max (x0 (ix2 p q) + x1 (ix2 (0 : Fin 1) q)) (Ideal.ofBits .f32 0x00000000#32) := by
  show maximumf (addf (shapeCast S5000x128 x0 shapeCasts_S5000x128_S5000x128)
      (broadcastTo S5000x128 (shapeCast S1x128 x1 shapeCasts_S1x128_S1x128) broadcasts_S1x128_S5000x128))
      (broadcast S5000x128 (Scalar.ofBits (F := Ideal) .f32 0x00000000#32)) (ix2 p q) = _
  rw [shapeCast_self, shapeCast_self, maximumf_apply, addf_apply, broadcastTo_1b_ab_apply, broadcast_apply]
  rfl

theorem bias3_entry (x0 : Vec Ideal S5000x128 .f32) (x1 : Vec Ideal S1x128 .f32) (p : Fin 5000) (q : Fin 128) :
    k3_pay1 (F := Ideal) x0 x1 (ix2 p q) = max (x0 (ix2 p q) + x1 (ix2 (0 : Fin 1) q)) (Ideal.ofBits .f32 0x00000000#32) := by
  show maximumf (addf (shapeCast S5000x128 x0 shapeCasts_S5000x128_S5000x128)
      (broadcastTo S5000x128 (shapeCast S1x128 x1 shapeCasts_S1x128_S1x128) broadcasts_S1x128_S5000x128))
      (broadcast S5000x128 (Scalar.ofBits (F := Ideal) .f32 0x00000000#32)) (ix2 p q) = _
  rw [shapeCast_self, shapeCast_self, maximumf_apply, addf_apply, broadcastTo_1b_ab_apply, broadcast_apply]
  rfl

/-- The last body: the product's entry plus the bias row's entry, clamped at the zero word. -/
theorem head4_entry (x0 : Vec Ideal S5000x128 .f32) (x1 : Vec Ideal S64x128 .f32) (x2 : Vec Ideal S1x64 .f32) (p : Fin 5000) (q : Fin 64) :
    k4_pay1 (F := Ideal) x0 x1 x2 (ix2 p q)
      = max ((∑ k : Fin 128, x0 (ix2 p k) * x1 (ix2 q k)) + x2 (ix2 (0 : Fin 1) q)) (Ideal.ofBits .f32 0x00000000#32) := by
  show maximumf (addf (matmul dot_S5000x128_S128x64_S5000x64_1_0_0_1_n_n none
        (truncf .bf16 (shapeCast S5000x128 x0 shapeCasts_S5000x128_S5000x128) bitsLt_bf16_f32)
        (transpose S128x64 [1, 0] (truncf .bf16 x1 bitsLt_bf16_f32) transposes_S64x128_p1_0_S128x64)
        (constant S5000x64 .f32 0x00000000#32))
      (broadcastTo S5000x64 (shapeCast S1x64 x2 shapeCasts_S1x64_S1x64) broadcasts_S1x64_S5000x64))
      (broadcast S5000x64 (Scalar.ofBits (F := Ideal) .f32 0x00000000#32)) (ix2 p q) = _
  rw [maximumf_apply, addf_apply, broadcastTo_1b_ab_apply, broadcast_apply, shapeCast_self, shapeCast_self]
  refine congrArg (fun z => max (z + x2 (ix2 (0 : Fin 1) q)) _) ?_
  refine (Cert.LibDot.matmul_ix2 plain_k64 none _ _ p q).trans ?_
  refine Finset.sum_congr rfl fun k _ => ?_
  rw [transpose_ix2_apply]
  rfl

end Bodies

/-! ## The specification's layers at an entry -/

section SpecEntries

open Cert.ReferenceIdeal Cert.ReferenceIdeal.Gen

/-- A dense layer at node r, feature q: the sum over k of the features' entry (r, k) times the weight's entry (q, k). -/
theorem dense_entry (X : FVec Ideal S50000x128 .f32) (W : FVec Ideal S128x128 .f32) (r : Fin 50000) (q : Fin 128) :
    Cert.Spec.dense X W (ix2 r q) = ∑ k : Fin 128, X (ix2 r k) * W (ix2 q k) := by
  unfold Cert.Spec.dense
  refine (Cert.LibDot.dotGeneral_ix2 plain_r128 none X (transpose S128x128 [1, 0] W transposes_S128x128_S128x128_1_0) r q).trans ?_
  refine Finset.sum_congr rfl fun k _ => ?_
  rw [transpose_ix2_apply]

/-- A bias vector laid along the rows of a [50000, 128] array, read at (r, q), is its entry q. -/
theorem biasRows128_entry (b : FVec Ideal S128 .f32) (r : Fin 50000) (q : Fin 128) :
    broadcastInDim S50000x128 ![0, 1] bcast_S1x128_S50000x128_0_1 (broadcastInDim S1x128 ![1] bcast_S128_S1x128_1 b) (ix2 r q) = b (ix1 q) := by
  refine (broadcastInDim_apply _ _ _ (ix2 r q) (ix2 (0 : Fin 1) q) (fun a => ?_)).trans
    (broadcastInDim_apply _ _ _ (ix2 (0 : Fin 1) q) (ix1 q) (fun a => ?_))
  · match a with
    | ⟨0, _⟩ => rfl
    | ⟨1, _⟩ => rfl
  · match a with
    | ⟨0, _⟩ => rfl

/-- A bias vector laid along the rows of a [50000, 64] array, read at (r, q), is its entry q. -/
theorem biasRows64_entry (b : FVec Ideal S64 .f32) (r : Fin 50000) (q : Fin 64) :
    broadcastInDim S50000x64 ![0, 1] bcast_S1x64_S50000x64_0_1 (broadcastInDim S1x64 ![1] bcast_S64_S1x64_1 b) (ix2 r q) = b (ix1 q) := by
  refine (broadcastInDim_apply _ _ _ (ix2 r q) (ix2 (0 : Fin 1) q) (fun a => ?_)).trans
    (broadcastInDim_apply _ _ _ (ix2 (0 : Fin 1) q) (ix1 q) (fun a => ?_))
  · match a with
    | ⟨0, _⟩ => rfl
    | ⟨1, _⟩ => rfl
  · match a with
    | ⟨0, _⟩ => rfl

/-- The bias-and-clamp handed its bias as a [1, 128] cast of the bias vector is the specification's. -/
theorem biasReluRow_cast (A : FVec Ideal S50000x128 .f32) (b : FVec Ideal S128 .f32) (h : S128.ShapeCasts S1x128) :
    Cert.Spec.biasReluRow A (shapeCast S1x128 b h) = Cert.Spec.biasRelu A b := by
  funext i
  obtain ⟨r, q, rfl⟩ : ∃ (r : Fin 50000) (q : Fin 128), i = ix2 r q := ⟨i 0, i 1, eq_ix2 i⟩
  unfold Cert.Spec.biasRelu
  rw [maximumf_apply, addf_apply, biasRows128_entry]
  show max (A (ix2 r q) + shapeCast S1x128 b h (ix2 (0 : Fin 1) q)) (Ideal.ofBits .f32 0x00000000#32) = _
  rw [shapeCast_a_1a_apply]
  rfl

/-- The last layer handed its bias as a [1, 64] cast of the bias vector is the specification's. -/
theorem headRow_cast (X : FVec Ideal S50000x128 .f32) (Wp : FVec Ideal S64x128 .f32) (b : FVec Ideal S64 .f32) (h : S64.ShapeCasts S1x64) :
    Cert.Spec.headRow X Wp (shapeCast S1x64 b h) = Cert.Spec.head X Wp b := by
  funext i
  obtain ⟨r, q, rfl⟩ : ∃ (r : Fin 50000) (q : Fin 64), i = ix2 r q := ⟨i 0, i 1, eq_ix2 i⟩
  unfold Cert.Spec.head
  rw [maximumf_apply, addf_apply, biasRows64_entry]
  show max ((∑ k : Fin 128, X (ix2 r k) * Wp (ix2 q k)) + shapeCast S1x64 b h (ix2 (0 : Fin 1) q)) (Ideal.ofBits .f32 0x00000000#32) = _
  rw [shapeCast_a_1a_apply]
  refine congrArg (fun z => max (z + b (ix1 q)) _) ?_
  refine Eq.symm ((Cert.LibDot.dotGeneral_ix2 plain_r64 none X (transpose S128x64 [1, 0] Wp transposes_S64x128_S128x64_1_0) r q).trans ?_)
  refine Finset.sum_congr rfl fun k _ => ?_
  rw [transpose_ix2_apply]

end SpecEntries

end Cert.Hand

end
-- ==== Proof.Region0.lean ====
/-
  Region 0, the first dense layer: the ten row blocks the pipeline writes back tile the 50000 node rows, and block t
  of the result is block t of the specification's dense layer of the two arrays the region finds, whatever they are.
-/
import proofs.«120317_j21406117003578_1_alg».proof.Proof.Gen.KernelIdeal.Frame
import proofs.«120317_j21406117003578_1_alg».proof.Proof.Payload

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable (V : (c : Dev nD) → (b : Ref sig .tc) → Buf (Elt Ideal) ((c : Thread nD τ).loc b))

theorem hz2 : (![0, 0] : Fin 2 → Nat) = fun _ => 0 := funext fun a => by fin_cases a <;> rfl

/-- The index maps of region 0 over its ten points: the features' block and the result's block are the same row
    block, at most the tenth; the weight's block is the whole matrix. -/
theorem idx_facts0 : ∀ t : Fin cfg0.N, win0_0.index t (0 : Fin 2) = win0_2.index t (0 : Fin 2)
    ∧ win0_0.index t (1 : Fin 2) = 0 ∧ win0_2.index t (1 : Fin 2) = 0
    ∧ win0_1.index t (0 : Fin 2) = 0 ∧ win0_1.index t (1 : Fin 2) = 0
    ∧ win0_2.index t (0 : Fin 2) ≤ 9 :=
  (by decide +kernel : ∀ t : Fin grid0.N, _)

/-- Every one of the ten row blocks is some point's. -/
theorem idx_onto0 : ∀ q0 : Fin 10, ∃ t : Fin cfg0.N, win0_2.index t = ![q0.val, 0] :=
  (by decide +kernel : ∀ q0 : Fin 10, ∃ t : Fin grid0.N, win0_2.index t = ![q0.val, 0])

/-- What point t writes back is block t of the dense layer of the arrays the region finds. -/
theorem flushed0 (c : Dev nD) (t : Fin cfg0.N) :
    (dat0 V c).flushed 2 t = ((cfg0.win 2).blk t).view.read (Elt Ideal) (Cert.Spec.dense (V c main_arg0) (V c main_arg2)) := by
  show (cfg0.win 2).cut (grid0.coords t) ((dat0 V c).after 2 t) = _
  rw [after0_2]
  unfold out0_2
  rw [View.canon_unit_zero hz2]
  simp only [View.ld_unit_zero (S := S5000x128) hz2, View.ld_unit_zero (S := S128x128) hz2]
  obtain ⟨e0, e1, e2, e3, e4, e5⟩ := idx_facts0 t
  funext j
  obtain ⟨p, q, rfl⟩ : ∃ (p : Fin 5000) (q : Fin 128), j = ix2 p q := ⟨j 0, j 1, eq_ix2 j⟩
  refine (Cert.Hand.lin0_entry (iblk0 V c 0 t) (iblk0 V c 1 t) p q).trans ?_
  show _ = Cert.Spec.dense (V c main_arg0) (V c main_arg2) (((cfg0.win 2).blk t).view.emb (ix2 p q))
  have hr : win0_2.index t (0 : Fin 2) * 5000 + p.val < 50000 := by have := p.isLt; omega
  have hi : ((cfg0.win 2).blk t).view.emb (ix2 p q) = ix2 (⟨win0_2.index t (0 : Fin 2) * 5000 + p.val, hr⟩ : Fin 50000) q := by
    funext a; apply Fin.ext
    match a with
    | ⟨0, _⟩ => show win0_2.index t (0 : Fin 2) * 5000 + 1 * p.val = win0_2.index t (0 : Fin 2) * 5000 + p.val; omega
    | ⟨1, _⟩ => show win0_2.index t (1 : Fin 2) * 128 + 1 * q.val = q.val; omega
  have hx : ∀ k : Fin 128, iblk0 V c 0 t (ix2 p k) = V c main_arg0 (ix2 (⟨win0_2.index t (0 : Fin 2) * 5000 + p.val, hr⟩ : Fin 50000) k) := fun k => by
    show V c main_arg0 (((cfg0.win 0).blk t).view.emb (ix2 p k)) = _
    refine congrArg (V c main_arg0) (funext fun a => Fin.ext ?_)
    match a with
    | ⟨0, _⟩ => show win0_0.index t (0 : Fin 2) * 5000 + 1 * p.val = win0_2.index t (0 : Fin 2) * 5000 + p.val; omega
    | ⟨1, _⟩ => show win0_0.index t (1 : Fin 2) * 128 + 1 * k.val = k.val; omega
  have hw : ∀ k : Fin 128, iblk0 V c 1 t (ix2 q k) = V c main_arg2 (ix2 q k) := fun k => by
    show V c main_arg2 (((cfg0.win 1).blk t).view.emb (ix2 q k)) = _
    refine congrArg (V c main_arg2) (funext fun a => Fin.ext ?_)
    match a with
    | ⟨0, _⟩ => show win0_1.index t (0 : Fin 2) * 128 + 1 * q.val = q.val; omega
    | ⟨1, _⟩ => show win0_1.index t (1 : Fin 2) * 128 + 1 * k.val = k.val; omega
  rw [hi, Cert.Hand.dense_entry]
  exact Finset.sum_congr rfl fun k _ => congrArg₂ (fun a b : Ideal .f32 => a * b) (hx k) (hw k)

/-- A node row lies in point t's block exactly when it is one of the block's 5000 rows. -/
theorem mem_blk0 (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- After region 0 its result array is the dense layer of the arrays the region found. -/
theorem final0 (c : Dev nD) : (dat0 V c).arrAt 2 cfg0.N = Cert.Spec.dense (V c main_arg0) (V c main_arg2) :=
  (dat0 V c).arrAt_eq_of_cover 2 (Cert.Spec.dense (V c main_arg0) (V c main_arg2)) (fun t _ => flushed0 V c t) fun i => by
    have hi0 : (i 0).val < 50000 := (i 0).isLt
    have hi1 : (i 1).val < 128 := (i 1).isLt
    obtain ⟨t, ht⟩ := idx_onto0 ⟨(i 0).val / 5000, by omega⟩
    have q0 : win0_2.index t (0 : Fin 2) = (i 0).val / 5000 := congrFun ht 0
    have q1 : win0_2.index t (1 : Fin 2) = 0 := congrFun ht 1
    refine ⟨t, flush0_2 t, ?_⟩
    rw [mem_blk0]
    intro a
    match a with
    | ⟨0, _⟩ => show win0_2.index t (0 : Fin 2) * 5000 ≤ (i 0).val ∧ (i 0).val < win0_2.index t (0 : Fin 2) * 5000 + 5000; omega
    | ⟨1, _⟩ => show win0_2.index t (1 : Fin 2) * 128 ≤ (i 1).val ∧ (i 1).val < win0_2.index t (1 : Fin 2) * 128 + 128; omega

end Cert.KernelIdeal.Hand

end
-- ==== Proof.Region1.lean ====
/-
  Region 1, the first bias-and-clamp: the ten row blocks the pipeline writes back tile the 50000 node rows, and block t
  of the result is block t of the bias-and-clamp of the two arrays the region finds (the bias as a [1, 128] array).
-/
import proofs.«120317_j21406117003578_1_alg».proof.Proof.Gen.KernelIdeal.Frame
import proofs.«120317_j21406117003578_1_alg».proof.Proof.Payload

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable (V : (c : Dev nD) → (b : Ref sig .tc) → Buf (Elt Ideal) ((c : Thread nD τ).loc b))

theorem hz2_1 : (![0, 0] : Fin 2 → Nat) = fun _ => 0 := funext fun a => by fin_cases a <;> rfl

/-- The index maps of region 1 over its ten points: the input's block and the result's block are the same row block,
    at most the tenth; the bias block is the whole [1, 128] array. -/
theorem idx_facts1 : ∀ t : Fin cfg1.N, win1_0.index t (0 : Fin 2) = win1_2.index t (0 : Fin 2)
    ∧ win1_0.index t (1 : Fin 2) = 0 ∧ win1_2.index t (1 : Fin 2) = 0
    ∧ win1_1.index t (0 : Fin 2) = 0 ∧ win1_1.index t (1 : Fin 2) = 0
    ∧ win1_2.index t (0 : Fin 2) ≤ 9 :=
  (by decide +kernel : ∀ t : Fin grid1.N, _)

/-- Every one of the ten row blocks is some point's. -/
theorem idx_onto1 : ∀ q0 : Fin 10, ∃ t : Fin cfg1.N, win1_2.index t = ![q0.val, 0] :=
  (by decide +kernel : ∀ q0 : Fin 10, ∃ t : Fin grid1.N, win1_2.index t = ![q0.val, 0])

/-- What point t writes back is block t of the bias-and-clamp of the arrays the region finds. -/
theorem flushed1 (c : Dev nD) (t : Fin cfg1.N) :
    (dat1 V c).flushed 2 t = ((cfg1.win 2).blk t).view.read (Elt Ideal) (Cert.Spec.biasReluRow (V c main_v43) (V c main_v44)) := by
  show (cfg1.win 2).cut (grid1.coords t) ((dat1 V c).after 2 t) = _
  rw [after1_2]
  unfold out1_2
  rw [View.canon_unit_zero hz2_1]
  simp only [View.ld_unit_zero (S := S5000x128) hz2_1, View.ld_unit_zero (S := S1x128) hz2_1]
  obtain ⟨e0, e1, e2, e3, e4, e5⟩ := idx_facts1 t
  funext j
  obtain ⟨p, q, rfl⟩ : ∃ (p : Fin 5000) (q : Fin 128), j = ix2 p q := ⟨j 0, j 1, eq_ix2 j⟩
  refine (Cert.Hand.bias1_entry (iblk1 V c 0 t) (iblk1 V c 1 t) p q).trans ?_
  show _ = Cert.Spec.biasReluRow (V c main_v43) (V c main_v44) (((cfg1.win 2).blk t).view.emb (ix2 p q))
  have hr : win1_2.index t (0 : Fin 2) * 5000 + p.val < 50000 := by have := p.isLt; omega
  have hi : ((cfg1.win 2).blk t).view.emb (ix2 p q) = ix2 (⟨win1_2.index t (0 : Fin 2) * 5000 + p.val, hr⟩ : Fin 50000) q := by
    funext a; apply Fin.ext
    match a with
    | ⟨0, _⟩ => show win1_2.index t (0 : Fin 2) * 5000 + 1 * p.val = win1_2.index t (0 : Fin 2) * 5000 + p.val; omega
    | ⟨1, _⟩ => show win1_2.index t (1 : Fin 2) * 128 + 1 * q.val = q.val; omega
  have hx : iblk1 V c 0 t (ix2 p q) = V c main_v43 (ix2 (⟨win1_2.index t (0 : Fin 2) * 5000 + p.val, hr⟩ : Fin 50000) q) := by
    show V c main_v43 (((cfg1.win 0).blk t).view.emb (ix2 p q)) = _
    refine congrArg (V c main_v43) (funext fun a => Fin.ext ?_)
    match a with
    | ⟨0, _⟩ => show win1_0.index t (0 : Fin 2) * 5000 + 1 * p.val = win1_2.index t (0 : Fin 2) * 5000 + p.val; omega
    | ⟨1, _⟩ => show win1_0.index t (1 : Fin 2) * 128 + 1 * q.val = q.val; omega
  have hb : iblk1 V c 1 t (ix2 (0 : Fin 1) q) = V c main_v44 (ix2 (0 : Fin 1) q) := by
    show V c main_v44 (((cfg1.win 1).blk t).view.emb (ix2 (0 : Fin 1) q)) = _
    refine congrArg (V c main_v44) (funext fun a => Fin.ext ?_)
    match a with
    | ⟨0, _⟩ => show win1_1.index t (0 : Fin 2) * 1 + 1 * 0 = 0; omega
    | ⟨1, _⟩ => show win1_1.index t (1 : Fin 2) * 128 + 1 * q.val = q.val; omega
  rw [hi]
  exact congrArg₂ (fun a b : Ideal .f32 => max (a + b) (Ideal.ofBits .f32 0x00000000#32)) hx hb

/-- A node row lies in point t's block exactly when it is one of the block's 5000 rows. -/
theorem mem_blk1 (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v45).slice (win1_2.rect t)).set ↔ _
  rw [View.set_slice_whole, Rect.mem_set_unit]
  exact Iff.rfl

/-- After region 1 its result array is the bias-and-clamp of the arrays the region found. -/
theorem final1 (c : Dev nD) : (dat1 V c).arrAt 2 cfg1.N = Cert.Spec.biasReluRow (V c main_v43) (V c main_v44) :=
  (dat1 V c).arrAt_eq_of_cover 2 (Cert.Spec.biasReluRow (V c main_v43) (V c main_v44)) (fun t _ => flushed1 V c t) fun i => by
    have hi0 : (i 0).val < 50000 := (i 0).isLt
    have hi1 : (i 1).val < 128 := (i 1).isLt
    obtain ⟨t, ht⟩ := idx_onto1 ⟨(i 0).val / 5000, by omega⟩
    have q0 : win1_2.index t (0 : Fin 2) = (i 0).val / 5000 := congrFun ht 0
    have q1 : win1_2.index t (1 : Fin 2) = 0 := congrFun ht 1
    refine ⟨t, flush1_2 t, ?_⟩
    rw [mem_blk1]
    intro a
    match a with
    | ⟨0, _⟩ => show win1_2.index t (0 : Fin 2) * 5000 ≤ (i 0).val ∧ (i 0).val < win1_2.index t (0 : Fin 2) * 5000 + 5000; omega
    | ⟨1, _⟩ => show win1_2.index t (1 : Fin 2) * 128 ≤ (i 1).val ∧ (i 1).val < win1_2.index t (1 : Fin 2) * 128 + 128; omega

end Cert.KernelIdeal.Hand

end
-- ==== Proof.Region2.lean ====
/-
  Region 2, the second dense layer: the ten row blocks the pipeline writes back tile the 50000 node rows, and block t
  of the result is block t of the specification's dense layer of the two arrays the region finds, whatever they are.
-/
import proofs.«120317_j21406117003578_1_alg».proof.Proof.Gen.KernelIdeal.Frame
import proofs.«120317_j21406117003578_1_alg».proof.Proof.Payload

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable (V : (c : Dev nD) → (b : Ref sig .tc) → Buf (Elt Ideal) ((c : Thread nD τ).loc b))

theorem hz2_2 : (![0, 0] : Fin 2 → Nat) = fun _ => 0 := funext fun a => by fin_cases a <;> rfl

/-- The index maps of region 2 over its ten points: the features' block and the result's block are the same row
    block, at most the tenth; the weight's block is the whole matrix. -/
theorem idx_facts2 : ∀ t : Fin cfg2.N, win2_0.index t (0 : Fin 2) = win2_2.index t (0 : Fin 2)
    ∧ win2_0.index t (1 : Fin 2) = 0 ∧ win2_2.index t (1 : Fin 2) = 0
    ∧ win2_1.index t (0 : Fin 2) = 0 ∧ win2_1.index t (1 : Fin 2) = 0
    ∧ win2_2.index t (0 : Fin 2) ≤ 9 :=
  (by decide +kernel : ∀ t : Fin grid2.N, _)

/-- Every one of the ten row blocks is some point's. -/
theorem idx_onto2 : ∀ q0 : Fin 10, ∃ t : Fin cfg2.N, win2_2.index t = ![q0.val, 0] :=
  (by decide +kernel : ∀ q0 : Fin 10, ∃ t : Fin grid2.N, win2_2.index t = ![q0.val, 0])

/-- What point t writes back is block t of the dense layer of the arrays the region finds. -/
theorem flushed2 (c : Dev nD) (t : Fin cfg2.N) :
    (dat2 V c).flushed 2 t = ((cfg2.win 2).blk t).view.read (Elt Ideal) (Cert.Spec.dense (V c main_v45) (V c main_arg4)) := by
  show (cfg2.win 2).cut (grid2.coords t) ((dat2 V c).after 2 t) = _
  rw [after2_2]
  unfold out2_2
  rw [View.canon_unit_zero hz2_2]
  simp only [View.ld_unit_zero (S := S5000x128) hz2_2, View.ld_unit_zero (S := S128x128) hz2_2]
  obtain ⟨e0, e1, e2, e3, e4, e5⟩ := idx_facts2 t
  funext j
  obtain ⟨p, q, rfl⟩ : ∃ (p : Fin 5000) (q : Fin 128), j = ix2 p q := ⟨j 0, j 1, eq_ix2 j⟩
  refine (Cert.Hand.lin2_entry (iblk2 V c 0 t) (iblk2 V c 1 t) p q).trans ?_
  show _ = Cert.Spec.dense (V c main_v45) (V c main_arg4) (((cfg2.win 2).blk t).view.emb (ix2 p q))
  have hr : win2_2.index t (0 : Fin 2) * 5000 + p.val < 50000 := by have := p.isLt; omega
  have hi : ((cfg2.win 2).blk t).view.emb (ix2 p q) = ix2 (⟨win2_2.index t (0 : Fin 2) * 5000 + p.val, hr⟩ : Fin 50000) q := by
    funext a; apply Fin.ext
    match a with
    | ⟨0, _⟩ => show win2_2.index t (0 : Fin 2) * 5000 + 1 * p.val = win2_2.index t (0 : Fin 2) * 5000 + p.val; omega
    | ⟨1, _⟩ => show win2_2.index t (1 : Fin 2) * 128 + 1 * q.val = q.val; omega
  have hx : ∀ k : Fin 128, iblk2 V c 0 t (ix2 p k) = V c main_v45 (ix2 (⟨win2_2.index t (0 : Fin 2) * 5000 + p.val, hr⟩ : Fin 50000) k) := fun k => by
    show V c main_v45 (((cfg2.win 0).blk t).view.emb (ix2 p k)) = _
    refine congrArg (V c main_v45) (funext fun a => Fin.ext ?_)
    match a with
    | ⟨0, _⟩ => show win2_0.index t (0 : Fin 2) * 5000 + 1 * p.val = win2_2.index t (0 : Fin 2) * 5000 + p.val; omega
    | ⟨1, _⟩ => show win2_0.index t (1 : Fin 2) * 128 + 1 * k.val = k.val; omega
  have hw : ∀ k : Fin 128, iblk2 V c 1 t (ix2 q k) = V c main_arg4 (ix2 q k) := fun k => by
    show V c main_arg4 (((cfg2.win 1).blk t).view.emb (ix2 q k)) = _
    refine congrArg (V c main_arg4) (funext fun a => Fin.ext ?_)
    match a with
    | ⟨0, _⟩ => show win2_1.index t (0 : Fin 2) * 128 + 1 * q.val = q.val; omega
    | ⟨1, _⟩ => show win2_1.index t (1 : Fin 2) * 128 + 1 * k.val = k.val; omega
  rw [hi, Cert.Hand.dense_entry]
  exact Finset.sum_congr rfl fun k _ => congrArg₂ (fun a b : Ideal .f32 => a * b) (hx k) (hw k)

/-- A node row lies in point t's block exactly when it is one of the block's 5000 rows. -/
theorem mem_blk2 (t : Fin cfg2.N) (i : S50000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v46).slice (win2_2.rect t)).set ↔ _
  rw [View.set_slice_whole, Rect.mem_set_unit]
  exact Iff.rfl

/-- After region 2 its result array is the dense layer of the arrays the region found. -/
theorem final2 (c : Dev nD) : (dat2 V c).arrAt 2 cfg2.N = Cert.Spec.dense (V c main_v45) (V c main_arg4) :=
  (dat2 V c).arrAt_eq_of_cover 2 (Cert.Spec.dense (V c main_v45) (V c main_arg4)) (fun t _ => flushed2 V c t) fun i => by
    have hi0 : (i 0).val < 50000 := (i 0).isLt
    have hi1 : (i 1).val < 128 := (i 1).isLt
    obtain ⟨t, ht⟩ := idx_onto2 ⟨(i 0).val / 5000, by omega⟩
    have q0 : win2_2.index t (0 : Fin 2) = (i 0).val / 5000 := congrFun ht 0
    have q1 : win2_2.index t (1 : Fin 2) = 0 := congrFun ht 1
    refine ⟨t, flush2_2 t, ?_⟩
    rw [mem_blk2]
    intro a
    match a with
    | ⟨0, _⟩ => show win2_2.index t (0 : Fin 2) * 5000 ≤ (i 0).val ∧ (i 0).val < win2_2.index t (0 : Fin 2) * 5000 + 5000; omega
    | ⟨1, _⟩ => show win2_2.index t (1 : Fin 2) * 128 ≤ (i 1).val ∧ (i 1).val < win2_2.index t (1 : Fin 2) * 128 + 128; omega

end Cert.KernelIdeal.Hand

end
-- ==== Proof.Region3.lean ====
/-
  Region 3, the second bias-and-clamp: the ten row blocks the pipeline writes back tile the 50000 node rows, and block t
  of the result is block t of the bias-and-clamp of the two arrays the region finds (the bias as a [1, 128] array).
-/
import proofs.«120317_j21406117003578_1_alg».proof.Proof.Gen.KernelIdeal.Frame
import proofs.«120317_j21406117003578_1_alg».proof.Proof.Payload

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable (V : (c : Dev nD) → (b : Ref sig .tc) → Buf (Elt Ideal) ((c : Thread nD τ).loc b))

theorem hz2_3 : (![0, 0] : Fin 2 → Nat) = fun _ => 0 := funext fun a => by fin_cases a <;> rfl

/-- The index maps of region 3 over its ten points: the input's block and the result's block are the same row block,
    at most the tenth; the bias block is the whole [1, 128] array. -/
theorem idx_facts3 : ∀ t : Fin cfg3.N, win3_0.index t (0 : Fin 2) = win3_2.index t (0 : Fin 2)
    ∧ win3_0.index t (1 : Fin 2) = 0 ∧ win3_2.index t (1 : Fin 2) = 0
    ∧ win3_1.index t (0 : Fin 2) = 0 ∧ win3_1.index t (1 : Fin 2) = 0
    ∧ win3_2.index t (0 : Fin 2) ≤ 9 :=
  (by decide +kernel : ∀ t : Fin grid3.N, _)

/-- Every one of the ten row blocks is some point's. -/
theorem idx_onto3 : ∀ q0 : Fin 10, ∃ t : Fin cfg3.N, win3_2.index t = ![q0.val, 0] :=
  (by decide +kernel : ∀ q0 : Fin 10, ∃ t : Fin grid3.N, win3_2.index t = ![q0.val, 0])

/-- What point t writes back is block t of the bias-and-clamp of the arrays the region finds. -/
theorem flushed3 (c : Dev nD) (t : Fin cfg3.N) :
    (dat3 V c).flushed 2 t = ((cfg3.win 2).blk t).view.read (Elt Ideal) (Cert.Spec.biasReluRow (V c main_v59) (V c main_v60)) := by
  show (cfg3.win 2).cut (grid3.coords t) ((dat3 V c).after 2 t) = _
  rw [after3_2]
  unfold out3_2
  rw [View.canon_unit_zero hz2_3]
  simp only [View.ld_unit_zero (S := S5000x128) hz2_3, View.ld_unit_zero (S := S1x128) hz2_3]
  obtain ⟨e0, e1, e2, e3, e4, e5⟩ := idx_facts3 t
  funext j
  obtain ⟨p, q, rfl⟩ : ∃ (p : Fin 5000) (q : Fin 128), j = ix2 p q := ⟨j 0, j 1, eq_ix2 j⟩
  refine (Cert.Hand.bias3_entry (iblk3 V c 0 t) (iblk3 V c 1 t) p q).trans ?_
  show _ = Cert.Spec.biasReluRow (V c main_v59) (V c main_v60) (((cfg3.win 2).blk t).view.emb (ix2 p q))
  have hr : win3_2.index t (0 : Fin 2) * 5000 + p.val < 50000 := by have := p.isLt; omega
  have hi : ((cfg3.win 2).blk t).view.emb (ix2 p q) = ix2 (⟨win3_2.index t (0 : Fin 2) * 5000 + p.val, hr⟩ : Fin 50000) q := by
    funext a; apply Fin.ext
    match a with
    | ⟨0, _⟩ => show win3_2.index t (0 : Fin 2) * 5000 + 1 * p.val = win3_2.index t (0 : Fin 2) * 5000 + p.val; omega
    | ⟨1, _⟩ => show win3_2.index t (1 : Fin 2) * 128 + 1 * q.val = q.val; omega
  have hx : iblk3 V c 0 t (ix2 p q) = V c main_v59 (ix2 (⟨win3_2.index t (0 : Fin 2) * 5000 + p.val, hr⟩ : Fin 50000) q) := by
    show V c main_v59 (((cfg3.win 0).blk t).view.emb (ix2 p q)) = _
    refine congrArg (V c main_v59) (funext fun a => Fin.ext ?_)
    match a with
    | ⟨0, _⟩ => show win3_0.index t (0 : Fin 2) * 5000 + 1 * p.val = win3_2.index t (0 : Fin 2) * 5000 + p.val; omega
    | ⟨1, _⟩ => show win3_0.index t (1 : Fin 2) * 128 + 1 * q.val = q.val; omega
  have hb : iblk3 V c 1 t (ix2 (0 : Fin 1) q) = V c main_v60 (ix2 (0 : Fin 1) q) := by
    show V c main_v60 (((cfg3.win 1).blk t).view.emb (ix2 (0 : Fin 1) q)) = _
    refine congrArg (V c main_v60) (funext fun a => Fin.ext ?_)
    match a with
    | ⟨0, _⟩ => show win3_1.index t (0 : Fin 2) * 1 + 1 * 0 = 0; omega
    | ⟨1, _⟩ => show win3_1.index t (1 : Fin 2) * 128 + 1 * q.val = q.val; omega
  rw [hi]
  exact congrArg₂ (fun a b : Ideal .f32 => max (a + b) (Ideal.ofBits .f32 0x00000000#32)) hx hb

/-- A node row lies in point t's block exactly when it is one of the block's 5000 rows. -/
theorem mem_blk3 (t : Fin cfg3.N) (i : S50000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v61).slice (win3_2.rect t)).set ↔ _
  rw [View.set_slice_whole, Rect.mem_set_unit]
  exact Iff.rfl

/-- After region 3 its result array is the bias-and-clamp of the arrays the region found. -/
theorem final3 (c : Dev nD) : (dat3 V c).arrAt 2 cfg3.N = Cert.Spec.biasReluRow (V c main_v59) (V c main_v60) :=
  (dat3 V c).arrAt_eq_of_cover 2 (Cert.Spec.biasReluRow (V c main_v59) (V c main_v60)) (fun t _ => flushed3 V c t) fun i => by
    have hi0 : (i 0).val < 50000 := (i 0).isLt
    have hi1 : (i 1).val < 128 := (i 1).isLt
    obtain ⟨t, ht⟩ := idx_onto3 ⟨(i 0).val / 5000, by omega⟩
    have q0 : win3_2.index t (0 : Fin 2) = (i 0).val / 5000 := congrFun ht 0
    have q1 : win3_2.index t (1 : Fin 2) = 0 := congrFun ht 1
    refine ⟨t, flush3_2 t, ?_⟩
    rw [mem_blk3]
    intro a
    match a with
    | ⟨0, _⟩ => show win3_2.index t (0 : Fin 2) * 5000 ≤ (i 0).val ∧ (i 0).val < win3_2.index t (0 : Fin 2) * 5000 + 5000; omega
    | ⟨1, _⟩ => show win3_2.index t (1 : Fin 2) * 128 ≤ (i 1).val ∧ (i 1).val < win3_2.index t (1 : Fin 2) * 128 + 128; omega

end Cert.KernelIdeal.Hand

end
-- ==== Proof.Region4.lean ====
/-
  Region 4, the last layer: the ten row blocks the pipeline writes back tile the 50000 rows of the [50000, 64] result, and
  block t of the result is block t of the dense-bias-clamp of the three arrays the region finds (the bias as a [1, 64]
  array).
-/
import proofs.«120317_j21406117003578_1_alg».proof.Proof.Gen.KernelIdeal.Frame
import proofs.«120317_j21406117003578_1_alg».proof.Proof.Payload

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable (V : (c : Dev nD) → (b : Ref sig .tc) → Buf (Elt Ideal) ((c : Thread nD τ).loc b))

theorem hz2_4 : (![0, 0] : Fin 2 → Nat) = fun _ => 0 := funext fun a => by fin_cases a <;> rfl

/-- The index maps of region 4 over its ten points: the features' block and the result's block are the same row
    block, at most the tenth; the weight's and the bias's blocks are their whole arrays. -/
theorem idx_facts4 : ∀ t : Fin cfg4.N, win4_0.index t (0 : Fin 2) = win4_3.index t (0 : Fin 2)
    ∧ win4_0.index t (1 : Fin 2) = 0 ∧ win4_3.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) ≤ 9 :=
  (by decide +kernel : ∀ t : Fin grid4.N, _)

/-- Every one of the ten row blocks is some point's. -/
theorem idx_onto4 : ∀ q0 : Fin 10, ∃ t : Fin cfg4.N, win4_3.index t = ![q0.val, 0] :=
  (by decide +kernel : ∀ q0 : Fin 10, ∃ t : Fin grid4.N, win4_3.index t = ![q0.val, 0])

/-- What point t writes back is block t of the last layer of the arrays the region finds. -/
theorem flushed4 (c : Dev nD) (t : Fin cfg4.N) :
    (dat4 V c).flushed 3 t = ((cfg4.win 3).blk t).view.read (Elt Ideal) (Cert.Spec.headRow (V c main_v61) (V c main_arg6) (V c main_v62)) := by
  show (cfg4.win 3).cut (grid4.coords t) ((dat4 V c).after 3 t) = _
  rw [after4_3]
  unfold out4_3
  rw [View.canon_unit_zero hz2_4]
  simp only [View.ld_unit_zero (S := S5000x128) hz2_4, View.ld_unit_zero (S := S64x128) hz2_4, View.ld_unit_zero (S := S1x64) hz2_4]
  obtain ⟨e0, e1, e2, e3, e4, e5, e6, e7⟩ := idx_facts4 t
  funext j
  obtain ⟨p, q, rfl⟩ : ∃ (p : Fin 5000) (q : Fin 64), j = ix2 p q := ⟨j 0, j 1, eq_ix2 j⟩
  refine (Cert.Hand.head4_entry (iblk4 V c 0 t) (iblk4 V c 1 t) (iblk4 V c 2 t) p q).trans ?_
  show _ = Cert.Spec.headRow (V c main_v61) (V c main_arg6) (V c main_v62) (((cfg4.win 3).blk t).view.emb (ix2 p q))
  have hr : win4_3.index t (0 : Fin 2) * 5000 + p.val < 50000 := by have := p.isLt; omega
  have hi : ((cfg4.win 3).blk t).view.emb (ix2 p q) = ix2 (⟨win4_3.index t (0 : Fin 2) * 5000 + p.val, hr⟩ : Fin 50000) q := by
    funext a; apply Fin.ext
    match a with
    | ⟨0, _⟩ => show win4_3.index t (0 : Fin 2) * 5000 + 1 * p.val = win4_3.index t (0 : Fin 2) * 5000 + p.val; omega
    | ⟨1, _⟩ => show win4_3.index t (1 : Fin 2) * 64 + 1 * q.val = q.val; omega
  have hx : ∀ k : Fin 128, iblk4 V c 0 t (ix2 p k) = V c main_v61 (ix2 (⟨win4_3.index t (0 : Fin 2) * 5000 + p.val, hr⟩ : Fin 50000) k) := fun k => by
    show V c main_v61 (((cfg4.win 0).blk t).view.emb (ix2 p k)) = _
    refine congrArg (V c main_v61) (funext fun a => Fin.ext ?_)
    match a with
    | ⟨0, _⟩ => show win4_0.index t (0 : Fin 2) * 5000 + 1 * p.val = win4_3.index t (0 : Fin 2) * 5000 + p.val; omega
    | ⟨1, _⟩ => show win4_0.index t (1 : Fin 2) * 128 + 1 * k.val = k.val; omega
  have hw : ∀ k : Fin 128, iblk4 V c 1 t (ix2 q k) = V c main_arg6 (ix2 q k) := fun k => by
    show V c main_arg6 (((cfg4.win 1).blk t).view.emb (ix2 q k)) = _
    refine congrArg (V c main_arg6) (funext fun a => Fin.ext ?_)
    match a with
    | ⟨0, _⟩ => show win4_1.index t (0 : Fin 2) * 64 + 1 * q.val = q.val; omega
    | ⟨1, _⟩ => show win4_1.index t (1 : Fin 2) * 128 + 1 * k.val = k.val; omega
  have hb : iblk4 V c 2 t (ix2 (0 : Fin 1) q) = V c main_v62 (ix2 (0 : Fin 1) q) := by
    show V c main_v62 (((cfg4.win 2).blk t).view.emb (ix2 (0 : Fin 1) q)) = _
    refine congrArg (V c main_v62) (funext fun a => Fin.ext ?_)
    match a with
    | ⟨0, _⟩ => show win4_2.index t (0 : Fin 2) * 1 + 1 * 0 = 0; omega
    | ⟨1, _⟩ => show win4_2.index t (1 : Fin 2) * 64 + 1 * q.val = q.val; omega
  rw [hi]
  exact congrArg₂ (fun s b : Ideal .f32 => max (s + b) (Ideal.ofBits .f32 0x00000000#32))
    (Finset.sum_congr rfl fun k _ => congrArg₂ (fun a b : Ideal .f32 => a * b) (hx k) (hw k)) hb

/-- A row lies in point t's block exactly when it is one of the block's 5000 rows. -/
theorem mem_blk4 (t : Fin cfg4.N) (i : S50000x64.Idx) :
    i ∈ ((cfg4.win 3).blk t).view.set ↔ ∀ a : Fin 2, win4_3.index t a * S5000x64.size a ≤ (i a).val ∧ (i a).val < win4_3.index t a * S5000x64.size a + S5000x64.size a := by
  show i ∈ ((View.whole main_v63).slice (win4_3.rect t)).set ↔ _
  rw [View.set_slice_whole, Rect.mem_set_unit]
  exact Iff.rfl

/-- After region 4 its result array is the last layer of the arrays the region found. -/
theorem final4 (c : Dev nD) : (dat4 V c).arrAt 3 cfg4.N = Cert.Spec.headRow (V c main_v61) (V c main_arg6) (V c main_v62) :=
  (dat4 V c).arrAt_eq_of_cover 3 (Cert.Spec.headRow (V c main_v61) (V c main_arg6) (V c main_v62)) (fun t _ => flushed4 V c t) fun i => by
    have hi0 : (i 0).val < 50000 := (i 0).isLt
    have hi1 : (i 1).val < 64 := (i 1).isLt
    obtain ⟨t, ht⟩ := idx_onto4 ⟨(i 0).val / 5000, by omega⟩
    have q0 : win4_3.index t (0 : Fin 2) = (i 0).val / 5000 := congrFun ht 0
    have q1 : win4_3.index t (1 : Fin 2) = 0 := congrFun ht 1
    refine ⟨t, flush4_3 t, ?_⟩
    rw [mem_blk4]
    intro a
    match a with
    | ⟨0, _⟩ => show win4_3.index t (0 : Fin 2) * 5000 ≤ (i 0).val ∧ (i 0).val < win4_3.index t (0 : Fin 2) * 5000 + 5000; omega
    | ⟨1, _⟩ => show win4_3.index t (1 : Fin 2) * 64 ≤ (i 1).val ∧ (i 1).val < win4_3.index t (1 : Fin 2) * 64 + 64; omega

end Cert.KernelIdeal.Hand

end
-- ==== Proof.Chain.lean ====
/-
  The idealized kernel's result array, followed through @main's eleven segments.

  The contents of the core's buffers at each segment boundary are a fold from the launch memory: a stretch of host
  operations applies its operations, a region replaces its output array by what its write-backs leave and keeps
  everything else.  Read at the buffers that matter, boundary by boundary: before region 0 the host has laid out the
  edge ends and computed the edge weights; region 0 leaves the first dense layer; the host aggregates it along the
  edges and reshapes the bias; region 1 adds the bias and clamps; region 2, the host and region 3 repeat this for the
  second layer; the host reshapes the last bias; region 4 leaves the output.  The edge ends, the edge weights and the
  arguments are carried unchanged through every segment that does not write them.
-/
import proofs.«120317_j21406117003578_1_alg».proof.Proof.Gen.KernelIdeal.Frame
import proofs.«120317_j21406117003578_1_alg».proof.Proof.Region0
import proofs.«120317_j21406117003578_1_alg».proof.Proof.Region1
import proofs.«120317_j21406117003578_1_alg».proof.Proof.Region2
import proofs.«120317_j21406117003578_1_alg».proof.Proof.Region3
import proofs.«120317_j21406117003578_1_alg».proof.Proof.Region4

noncomputable section

open Idealize.ShloMosaic Idealize.ShloMosaic.TcCoe Idealize.SL.Sem Idealize.ShloMosaic.StableHlo

namespace Cert.KernelIdeal.Hand

open Cert.KernelIdeal Cert.KernelIdeal.Gen

variable (m : (ℓ : Loc nD τ sig) → Buf (Elt Ideal) ℓ) (ρ : Dev nD → PrngReg) (c : Dev nD)

/-- The eight argument arrays as launched on core `c`. -/
abbrev argX : FVec Ideal S50000x128 .f32 := m ((c : Thread nD τ).loc main_arg0)
abbrev argE : IVec S2x800000 32 := m ((c : Thread nD τ).loc main_arg1)
abbrev argW1 : FVec Ideal S128x128 .f32 := m ((c : Thread nD τ).loc main_arg2)
abbrev argB1 : FVec Ideal S128 .f32 := m ((c : Thread nD τ).loc main_arg3)
abbrev argW2 : FVec Ideal S128x128 .f32 := m ((c : Thread nD τ).loc main_arg4)
abbrev argB2 : FVec Ideal S128 .f32 := m ((c : Thread nD τ).loc main_arg5)
abbrev argWp : FVec Ideal S64x128 .f32 := m ((c : Thread nD τ).loc main_arg6)
abbrev argBp : FVec Ideal S64 .f32 := m ((c : Thread nD τ).loc main_arg7)

/-- A buffer read after a stretch of host operations: each operation's result at its own buffer is its function of
    its operands, every other buffer is as it was; what is left is the same term on both sides. -/
macro "host_read" : tactic => `(tactic| (after_results_simp <;> rfl))

theorem at3_arg0 : W3 m ρ c (Proc.devRef .tc main_arg0) = (argX m c) :=
  by
  show StableHlo.after hostOps0_2 (StableHlo.after hostOps0_1 (StableHlo.after hostOps0 (W0 m ρ c))) (Proc.devRef .tc main_arg0) = _
  host_read

theorem at3_arg2 : W3 m ρ c (Proc.devRef .tc main_arg2) = (argW1 m c) :=
  by
  show StableHlo.after hostOps0_2 (StableHlo.after hostOps0_1 (StableHlo.after hostOps0 (W0 m ρ c))) (Proc.devRef .tc main_arg2) = _
  host_read

theorem at3_arg3 : W3 m ρ c (Proc.devRef .tc main_arg3) = (argB1 m c) :=
  by
  show StableHlo.after hostOps0_2 (StableHlo.after hostOps0_1 (StableHlo.after hostOps0 (W0 m ρ c))) (Proc.devRef .tc main_arg3) = _
  host_read

theorem at3_arg4 : W3 m ρ c (Proc.devRef .tc main_arg4) = (argW2 m c) :=
  by
  show StableHlo.after hostOps0_2 (StableHlo.after hostOps0_1 (StableHlo.after hostOps0 (W0 m ρ c))) (Proc.devRef .tc main_arg4) = _
  host_read

theorem at3_arg5 : W3 m ρ c (Proc.devRef .tc main_arg5) = (argB2 m c) :=
  by
  show StableHlo.after hostOps0_2 (StableHlo.after hostOps0_1 (StableHlo.after hostOps0 (W0 m ρ c))) (Proc.devRef .tc main_arg5) = _
  host_read

theorem at3_arg6 : W3 m ρ c (Proc.devRef .tc main_arg6) = (argWp m c) :=
  by
  show StableHlo.after hostOps0_2 (StableHlo.after hostOps0_1 (StableHlo.after hostOps0 (W0 m ρ c))) (Proc.devRef .tc main_arg6) = _
  host_read

theorem at3_arg7 : W3 m ρ c (Proc.devRef .tc main_arg7) = (argBp m c) :=
  by
  show StableHlo.after hostOps0_2 (StableHlo.after hostOps0_1 (StableHlo.after hostOps0 (W0 m ρ c))) (Proc.devRef .tc main_arg7) = _
  host_read

/-- Before the first region the sources of the edge ends have been laid out: the edge table's row 0, then the nodes. -/
theorem at3_v5 : W3 m ρ c (Proc.devRef .tc main_v5) = (Cert.Spec.srcIdx (argE m c)) :=
  by
  show StableHlo.after hostOps0_2 (StableHlo.after hostOps0_1 (StableHlo.after hostOps0 (W0 m ρ c))) (Proc.devRef .tc main_v5) = _
  host_read

/-- And the targets: the edge table's row 1, then the nodes. -/
theorem at3_v6 : W3 m ρ c (Proc.devRef .tc main_v6) = (Cert.Spec.dstIdx (argE m c)) :=
  by
  show StableHlo.after hostOps0_2 (StableHlo.after hostOps0_1 (StableHlo.after hostOps0 (W0 m ρ c))) (Proc.devRef .tc main_v6) = _
  host_read

/-- After the first stretch of host operations: the degree's positivity mask, -/
theorem first_v12 : StableHlo.after hostOps0 (W0 m ρ c) (Proc.devRef .tc main_v12)
    = cmpf .ogt (Cert.Spec.deg (Cert.Spec.dstIdx (argE m c))) (broadcastInDim S50000 ![] bcast_S_S50000 (constant (F := Ideal) S_ .f32 0x00000000#32)) := by
  host_read

/-- its inverse square root, -/
theorem first_v13 : StableHlo.after hostOps0 (W0 m ρ c) (Proc.devRef .tc main_v13) = Host.rsqrt (Cert.Spec.deg (Cert.Spec.dstIdx (argE m c))) := by
  host_read

/-- the zero the mask falls back on, -/
theorem first_cst_2 : StableHlo.after hostOps0 (W0 m ρ c) (Proc.devRef .tc main_cst_2) = constant (F := Ideal) S_ .f32 0x00000000#32 := by
  host_read

/-- and the edge ends. -/
theorem first_v5 : StableHlo.after hostOps0 (W0 m ρ c) (Proc.devRef .tc main_v5) = Cert.Spec.srcIdx (argE m c) := by
  host_read

theorem first_v6 : StableHlo.after hostOps0 (W0 m ρ c) (Proc.devRef .tc main_v6) = Cert.Spec.dstIdx (argE m c) := by
  host_read

/-- The second and third stretches, from any contents: the mask's choice gathered at both ends of every edge. -/
theorem weights_of (U : Valuation τ sig (Elt Ideal)) :
    StableHlo.after hostOps0_2 (StableHlo.after hostOps0_1 U) (Proc.devRef .tc main_v29)
      = Cert.Spec.normOf (Cert.Spec.dinvOf (U (Proc.devRef .tc main_v12)) (U (Proc.devRef .tc main_v13)) (U (Proc.devRef .tc main_cst_2)))
          (U (Proc.devRef .tc main_v5)) (U (Proc.devRef .tc main_v6)) := by
  host_read

/-- And the edge weights, from the degrees. -/
theorem at3_v29 : W3 m ρ c (Proc.devRef .tc main_v29) = (Cert.Spec.norm (Cert.Spec.srcIdx (argE m c)) (Cert.Spec.dstIdx (argE m c))) :=
  (weights_of (StableHlo.after hostOps0 (W0 m ρ c))).trans (by
    rw [first_v12, first_v13, first_cst_2, first_v5, first_v6]
    rfl)

/-- Region 0 leaves the first dense layer of the node features. -/
theorem at4_v30 : W4 m ρ c (Proc.devRef .tc main_v30) = Cert.Spec.dense (argX m c) (argW1 m c) :=
  (W4_arr m ρ c 2).trans ((final0 (V3 m ρ) c).trans (congrArg₂ Cert.Spec.dense (at3_arg0 m ρ c) (at3_arg2 m ρ c)))

theorem at4_v5 : W4 m ρ c (Proc.devRef .tc main_v5) = (Cert.Spec.srcIdx (argE m c)) :=
  (W4_of_ne m ρ c main_v5 (by decide)).trans (at3_v5 m ρ c)

theorem at4_v6 : W4 m ρ c (Proc.devRef .tc main_v6) = (Cert.Spec.dstIdx (argE m c)) :=
  (W4_of_ne m ρ c main_v6 (by decide)).trans (at3_v6 m ρ c)

theorem at4_v29 : W4 m ρ c (Proc.devRef .tc main_v29) = (Cert.Spec.norm (Cert.Spec.srcIdx (argE m c)) (Cert.Spec.dstIdx (argE m c))) :=
  (W4_of_ne m ρ c main_v29 (by decide)).trans (at3_v29 m ρ c)

theorem at4_arg3 : W4 m ρ c (Proc.devRef .tc main_arg3) = (argB1 m c) :=
  (W4_of_ne m ρ c main_arg3 (by decide)).trans (at3_arg3 m ρ c)

theorem at4_arg4 : W4 m ρ c (Proc.devRef .tc main_arg4) = (argW2 m c) :=
  (W4_of_ne m ρ c main_arg4 (by decide)).trans (at3_arg4 m ρ c)

theorem at4_arg5 : W4 m ρ c (Proc.devRef .tc main_arg5) = (argB2 m c) :=
  (W4_of_ne m ρ c main_arg5 (by decide)).trans (at3_arg5 m ρ c)

theorem at4_arg6 : W4 m ρ c (Proc.devRef .tc main_arg6) = (argWp m c) :=
  (W4_of_ne m ρ c main_arg6 (by decide)).trans (at3_arg6 m ρ c)

theorem at4_arg7 : W4 m ρ c (Proc.devRef .tc main_arg7) = (argBp m c) :=
  (W4_of_ne m ρ c main_arg7 (by decide)).trans (at3_arg7 m ρ c)

/-- The host operations between regions 0 and 1 aggregate the dense layer's rows along the edges. -/
theorem at5_v43 : W5 m ρ c (Proc.devRef .tc main_v43) = Cert.Spec.agg (Cert.Spec.srcIdx (argE m c)) (Cert.Spec.dstIdx (argE m c)) (Cert.Spec.norm (Cert.Spec.srcIdx (argE m c)) (Cert.Spec.dstIdx (argE m c))) (Cert.Spec.dense (argX m c) (argW1 m c)) :=
  (by
    show StableHlo.after hostOps1 (W4 m ρ c) (Proc.devRef .tc main_v43) = _
    host_read : W5 m ρ c (Proc.devRef .tc main_v43) = Cert.Spec.agg (W4 m ρ c (Proc.devRef .tc main_v5)) (W4 m ρ c (Proc.devRef .tc main_v6)) (W4 m ρ c (Proc.devRef .tc main_v29)) (W4 m ρ c (Proc.devRef .tc main_v30))).trans
    (by rw [at4_v5, at4_v6, at4_v29, at4_v30])

/-- and lay the first bias out as a [1, 128] array. -/
theorem at5_v44 : W5 m ρ c (Proc.devRef .tc main_v44) = shapeCast S1x128 (argB1 m c) shapeCasts_S128_S1x128 :=
  (by
    show StableHlo.after hostOps1 (W4 m ρ c) (Proc.devRef .tc main_v44) = _
    host_read : W5 m ρ c (Proc.devRef .tc main_v44) = shapeCast S1x128 (W4 m ρ c (Proc.devRef .tc main_arg3)) shapeCasts_S128_S1x128).trans
    (by rw [at4_arg3])

theorem at5_v5 : W5 m ρ c (Proc.devRef .tc main_v5) = (Cert.Spec.srcIdx (argE m c)) :=
  (by
    show StableHlo.after hostOps1 (W4 m ρ c) (Proc.devRef .tc main_v5) = W4 m ρ c (Proc.devRef .tc main_v5)
    host_read : W5 m ρ c (Proc.devRef .tc main_v5) = W4 m ρ c (Proc.devRef .tc main_v5)).trans (at4_v5 m ρ c)

theorem at5_v6 : W5 m ρ c (Proc.devRef .tc main_v6) = (Cert.Spec.dstIdx (argE m c)) :=
  (by
    show StableHlo.after hostOps1 (W4 m ρ c) (Proc.devRef .tc main_v6) = W4 m ρ c (Proc.devRef .tc main_v6)
    host_read : W5 m ρ c (Proc.devRef .tc main_v6) = W4 m ρ c (Proc.devRef .tc main_v6)).trans (at4_v6 m ρ c)

theorem at5_v29 : W5 m ρ c (Proc.devRef .tc main_v29) = (Cert.Spec.norm (Cert.Spec.srcIdx (argE m c)) (Cert.Spec.dstIdx (argE m c))) :=
  (by
    show StableHlo.after hostOps1 (W4 m ρ c) (Proc.devRef .tc main_v29) = W4 m ρ c (Proc.devRef .tc main_v29)
    host_read : W5 m ρ c (Proc.devRef .tc main_v29) = W4 m ρ c (Proc.devRef .tc main_v29)).trans (at4_v29 m ρ c)

theorem at5_arg4 : W5 m ρ c (Proc.devRef .tc main_arg4) = (argW2 m c) :=
  (by
    show StableHlo.after hostOps1 (W4 m ρ c) (Proc.devRef .tc main_arg4) = W4 m ρ c (Proc.devRef .tc main_arg4)
    host_read : W5 m ρ c (Proc.devRef .tc main_arg4) = W4 m ρ c (Proc.devRef .tc main_arg4)).trans (at4_arg4 m ρ c)

theorem at5_arg5 : W5 m ρ c (Proc.devRef .tc main_arg5) = (argB2 m c) :=
  (by
    show StableHlo.after hostOps1 (W4 m ρ c) (Proc.devRef .tc main_arg5) = W4 m ρ c (Proc.devRef .tc main_arg5)
    host_read : W5 m ρ c (Proc.devRef .tc main_arg5) = W4 m ρ c (Proc.devRef .tc main_arg5)).trans (at4_arg5 m ρ c)

theorem at5_arg6 : W5 m ρ c (Proc.devRef .tc main_arg6) = (argWp m c) :=
  (by
    show StableHlo.after hostOps1 (W4 m ρ c) (Proc.devRef .tc main_arg6) = W4 m ρ c (Proc.devRef .tc main_arg6)
    host_read : W5 m ρ c (Proc.devRef .tc main_arg6) = W4 m ρ c (Proc.devRef .tc main_arg6)).trans (at4_arg6 m ρ c)

theorem at5_arg7 : W5 m ρ c (Proc.devRef .tc main_arg7) = (argBp m c) :=
  (by
    show StableHlo.after hostOps1 (W4 m ρ c) (Proc.devRef .tc main_arg7) = W4 m ρ c (Proc.devRef .tc main_arg7)
    host_read : W5 m ρ c (Proc.devRef .tc main_arg7) = W4 m ρ c (Proc.devRef .tc main_arg7)).trans (at4_arg7 m ρ c)

/-- Region 1 leaves the first graph convolution. -/
theorem at6_v45 : W6 m ρ c (Proc.devRef .tc main_v45) = (Cert.Spec.layer (argE m c) (argX m c) (argW1 m c) (argB1 m c)) :=
  (W6_arr m ρ c 2).trans ((final1 (V5 m ρ) c).trans
    ((congrArg₂ Cert.Spec.biasReluRow (at5_v43 m ρ c) (at5_v44 m ρ c)).trans (Cert.Hand.biasReluRow_cast _ _ _)))

theorem at6_v5 : W6 m ρ c (Proc.devRef .tc main_v5) = (Cert.Spec.srcIdx (argE m c)) :=
  (W6_of_ne m ρ c main_v5 (by decide)).trans (at5_v5 m ρ c)

theorem at6_v6 : W6 m ρ c (Proc.devRef .tc main_v6) = (Cert.Spec.dstIdx (argE m c)) :=
  (W6_of_ne m ρ c main_v6 (by decide)).trans (at5_v6 m ρ c)

theorem at6_v29 : W6 m ρ c (Proc.devRef .tc main_v29) = (Cert.Spec.norm (Cert.Spec.srcIdx (argE m c)) (Cert.Spec.dstIdx (argE m c))) :=
  (W6_of_ne m ρ c main_v29 (by decide)).trans (at5_v29 m ρ c)

theorem at6_arg4 : W6 m ρ c (Proc.devRef .tc main_arg4) = (argW2 m c) :=
  (W6_of_ne m ρ c main_arg4 (by decide)).trans (at5_arg4 m ρ c)

theorem at6_arg5 : W6 m ρ c (Proc.devRef .tc main_arg5) = (argB2 m c) :=
  (W6_of_ne m ρ c main_arg5 (by decide)).trans (at5_arg5 m ρ c)

theorem at6_arg6 : W6 m ρ c (Proc.devRef .tc main_arg6) = (argWp m c) :=
  (W6_of_ne m ρ c main_arg6 (by decide)).trans (at5_arg6 m ρ c)

theorem at6_arg7 : W6 m ρ c (Proc.devRef .tc main_arg7) = (argBp m c) :=
  (W6_of_ne m ρ c main_arg7 (by decide)).trans (at5_arg7 m ρ c)

/-- Region 2 leaves the second dense layer. -/
theorem at7_v46 : W7 m ρ c (Proc.devRef .tc main_v46) = Cert.Spec.dense (Cert.Spec.layer (argE m c) (argX m c) (argW1 m c) (argB1 m c)) (argW2 m c) :=
  (W7_arr m ρ c 2).trans ((final2 (V6 m ρ) c).trans (congrArg₂ Cert.Spec.dense (at6_v45 m ρ c) (at6_arg4 m ρ c)))

theorem at7_v5 : W7 m ρ c (Proc.devRef .tc main_v5) = (Cert.Spec.srcIdx (argE m c)) :=
  (W7_of_ne m ρ c main_v5 (by decide)).trans (at6_v5 m ρ c)

theorem at7_v6 : W7 m ρ c (Proc.devRef .tc main_v6) = (Cert.Spec.dstIdx (argE m c)) :=
  (W7_of_ne m ρ c main_v6 (by decide)).trans (at6_v6 m ρ c)

theorem at7_v29 : W7 m ρ c (Proc.devRef .tc main_v29) = (Cert.Spec.norm (Cert.Spec.srcIdx (argE m c)) (Cert.Spec.dstIdx (argE m c))) :=
  (W7_of_ne m ρ c main_v29 (by decide)).trans (at6_v29 m ρ c)

theorem at7_arg5 : W7 m ρ c (Proc.devRef .tc main_arg5) = (argB2 m c) :=
  (W7_of_ne m ρ c main_arg5 (by decide)).trans (at6_arg5 m ρ c)

theorem at7_arg6 : W7 m ρ c (Proc.devRef .tc main_arg6) = (argWp m c) :=
  (W7_of_ne m ρ c main_arg6 (by decide)).trans (at6_arg6 m ρ c)

theorem at7_arg7 : W7 m ρ c (Proc.devRef .tc main_arg7) = (argBp m c) :=
  (W7_of_ne m ρ c main_arg7 (by decide)).trans (at6_arg7 m ρ c)

/-- The host operations between regions 2 and 3 aggregate again, with the same edge weights. -/
theorem at8_v59 : W8 m ρ c (Proc.devRef .tc main_v59) = Cert.Spec.agg (Cert.Spec.srcIdx (argE m c)) (Cert.Spec.dstIdx (argE m c)) (Cert.Spec.norm (Cert.Spec.srcIdx (argE m c)) (Cert.Spec.dstIdx (argE m c))) (Cert.Spec.dense (Cert.Spec.layer (argE m c) (argX m c) (argW1 m c) (argB1 m c)) (argW2 m c)) :=
  (by
    show StableHlo.after hostOps3 (W7 m ρ c) (Proc.devRef .tc main_v59) = _
    host_read : W8 m ρ c (Proc.devRef .tc main_v59) = Cert.Spec.agg (W7 m ρ c (Proc.devRef .tc main_v5)) (W7 m ρ c (Proc.devRef .tc main_v6)) (W7 m ρ c (Proc.devRef .tc main_v29)) (W7 m ρ c (Proc.devRef .tc main_v46))).trans
    (by rw [at7_v5, at7_v6, at7_v29, at7_v46])

theorem at8_v60 : W8 m ρ c (Proc.devRef .tc main_v60) = shapeCast S1x128 (argB2 m c) shapeCasts_S128_S1x128 :=
  (by
    show StableHlo.after hostOps3 (W7 m ρ c) (Proc.devRef .tc main_v60) = _
    host_read : W8 m ρ c (Proc.devRef .tc main_v60) = shapeCast S1x128 (W7 m ρ c (Proc.devRef .tc main_arg5)) shapeCasts_S128_S1x128).trans
    (by rw [at7_arg5])

theorem at8_arg6 : W8 m ρ c (Proc.devRef .tc main_arg6) = (argWp m c) :=
  (by
    show StableHlo.after hostOps3 (W7 m ρ c) (Proc.devRef .tc main_arg6) = W7 m ρ c (Proc.devRef .tc main_arg6)
    host_read : W8 m ρ c (Proc.devRef .tc main_arg6) = W7 m ρ c (Proc.devRef .tc main_arg6)).trans (at7_arg6 m ρ c)

theorem at8_arg7 : W8 m ρ c (Proc.devRef .tc main_arg7) = (argBp m c) :=
  (by
    show StableHlo.after hostOps3 (W7 m ρ c) (Proc.devRef .tc main_arg7) = W7 m ρ c (Proc.devRef .tc main_arg7)
    host_read : W8 m ρ c (Proc.devRef .tc main_arg7) = W7 m ρ c (Proc.devRef .tc main_arg7)).trans (at7_arg7 m ρ c)

/-- Region 3 leaves the second graph convolution. -/
theorem at9_v61 : W9 m ρ c (Proc.devRef .tc main_v61) = (Cert.Spec.layer (argE m c) (Cert.Spec.layer (argE m c) (argX m c) (argW1 m c) (argB1 m c)) (argW2 m c) (argB2 m c)) :=
  (W9_arr m ρ c 2).trans ((final3 (V8 m ρ) c).trans
    ((congrArg₂ Cert.Spec.biasReluRow (at8_v59 m ρ c) (at8_v60 m ρ c)).trans (Cert.Hand.biasReluRow_cast _ _ _)))

theorem at9_arg6 : W9 m ρ c (Proc.devRef .tc main_arg6) = (argWp m c) :=
  (W9_of_ne m ρ c main_arg6 (by decide)).trans (at8_arg6 m ρ c)

theorem at9_arg7 : W9 m ρ c (Proc.devRef .tc main_arg7) = (argBp m c) :=
  (W9_of_ne m ρ c main_arg7 (by decide)).trans (at8_arg7 m ρ c)

/-- The last bias laid out as a [1, 64] array. -/
theorem at10_v62 : W10 m ρ c (Proc.devRef .tc main_v62) = shapeCast S1x64 (argBp m c) shapeCasts_S64_S1x64 :=
  (by
    show StableHlo.after hostOps4 (W9 m ρ c) (Proc.devRef .tc main_v62) = _
    host_read : W10 m ρ c (Proc.devRef .tc main_v62) = shapeCast S1x64 (W9 m ρ c (Proc.devRef .tc main_arg7)) shapeCasts_S64_S1x64).trans
    (by rw [at9_arg7])

theorem at10_v61 : W10 m ρ c (Proc.devRef .tc main_v61) = (Cert.Spec.layer (argE m c) (Cert.Spec.layer (argE m c) (argX m c) (argW1 m c) (argB1 m c)) (argW2 m c) (argB2 m c)) :=
  (by
    show StableHlo.after hostOps4 (W9 m ρ c) (Proc.devRef .tc main_v61) = W9 m ρ c (Proc.devRef .tc main_v61)
    host_read : W10 m ρ c (Proc.devRef .tc main_v61) = W9 m ρ c (Proc.devRef .tc main_v61)).trans (at9_v61 m ρ c)

theorem at10_arg6 : W10 m ρ c (Proc.devRef .tc main_arg6) = (argWp m c) :=
  (by
    show StableHlo.after hostOps4 (W9 m ρ c) (Proc.devRef .tc main_arg6) = W9 m ρ c (Proc.devRef .tc main_arg6)
    host_read : W10 m ρ c (Proc.devRef .tc main_arg6) = W9 m ρ c (Proc.devRef .tc main_arg6)).trans (at9_arg6 m ρ c)

/-- Region 4 leaves the network's output. -/
theorem at11_v63 : W11 m ρ c (Proc.devRef .tc main_v63) = Cert.Spec.out (argX m c) (argE m c) (argW1 m c) (argB1 m c) (argW2 m c) (argB2 m c) (argWp m c) (argBp m c) :=
  (W11_arr m ρ c 3).trans ((final4 (V10 m ρ) c).trans
    ((congrArg (Cert.Spec.headRow _ _) (at10_v62 m ρ c)).trans ((Cert.Hand.headRow_cast _ _ _ _).trans
      (congrArg₂ (fun a b => Cert.Spec.head a b (argBp m c)) (at10_v61 m ρ c) (at10_arg6 m ρ c)))))

end Cert.KernelIdeal.Hand

end
-- ==== Proof.RefEq.lean ====
/-
  The reference's result, as the generated run states it, is the specification's network of the launched arguments:
  the run's term is the composition of the reference's host operations, which is what the specification's definitions
  unfold to.
-/
import proofs.«120317_j21406117003578_1_alg».proof.Proof.RefRunP
import proofs.«120317_j21406117003578_1_alg».proof.Proof.Spec

noncomputable section

open Idealize.ShloMosaic Idealize.ShloMosaic.TcCoe Idealize.SL.Sem

namespace Cert.Hand

open Cert.ReferenceIdeal Cert.ReferenceIdeal.Gen

set_option maxRecDepth 8192 in
theorem ref_eq (m : (ℓ : Loc nD τ sig) → Buf (Elt Ideal) ℓ) (c : Dev nD) :
    Cert.ReferenceIdeal.ValueP.res_main_v99 (F := Ideal) m c
      = Cert.Spec.out (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) := by
  unfold Cert.ReferenceIdeal.ValueP.res_main_v99 Cert.Spec.out Cert.Spec.head Cert.Spec.layer Cert.Spec.biasRelu Cert.Spec.agg
    Cert.Spec.norm Cert.Spec.normOf Cert.Spec.dinv Cert.Spec.dinvOf Cert.Spec.deg Cert.Spec.dense Cert.Spec.col Cert.Spec.wrap Cert.Spec.srcIdx Cert.Spec.dstIdx
  rfl

end Cert.Hand

end
-- ==== Proof.lean ====
/-
  A graph network of two graph convolutions and one dense layer, on 50000 nodes with 800000 edges and a self loop per
  node, against its plain array-language reference, on the extended reals.

  The kernel computes the three dense products, and the two bias-and-clamp steps, in five tiled regions over blocks of
  5000 node rows; between the regions the host gathers the product's rows along the edges, scales them by the edge
  weights and adds them into their targets.  The reference does the same host operations on whole arrays and computes
  the products and the bias-and-clamp steps as whole-array operations.  On the extended reals a block of a product is
  the product of the block (every entry is the same sum over the 128 contracted positions, and rounding the operands to
  a shorter format is the identity), so each region's result array is the reference's whole-array operation of the
  arrays the region is handed, and the two programs are one composition of the same gathers and scatter-additions,
  which are never opened.  No property of the inputs is used: no law that needs finiteness is applied.
-/
import proofs.«120317_j21406117003578_1_alg».proof.Defs
import proofs.«120317_j21406117003578_1_alg».proof.Proof.Gen.Kernel
import proofs.«120317_j21406117003578_1_alg».proof.Proof.Gen.Kernel.Skeleton
import proofs.«120317_j21406117003578_1_alg».proof.Proof.Gen.Kernel.Launch
import proofs.«120317_j21406117003578_1_alg».proof.Proof.Gen.Kernel.Points
import proofs.«120317_j21406117003578_1_alg».proof.Proof.Gen.Kernel.Frame
import proofs.«120317_j21406117003578_1_alg».proof.Proof.Gen.KernelIdeal
import proofs.«120317_j21406117003578_1_alg».proof.Proof.Gen.KernelIdeal.Skeleton
import proofs.«120317_j21406117003578_1_alg».proof.Proof.Gen.KernelIdeal.Launch
import proofs.«120317_j21406117003578_1_alg».proof.Proof.Gen.KernelIdeal.Points
import proofs.«120317_j21406117003578_1_alg».proof.Proof.Gen.KernelIdeal.Frame
import proofs.«120317_j21406117003578_1_alg».proof.Proof.Gen.ReferenceIdeal
import proofs.«120317_j21406117003578_1_alg».proof.Proof.Gen.Pre_finite_inputs
import Idealize.ShloMosaic.Adequacy
import Idealize.ShloMosaic.Init

import proofs.«120317_j21406117003578_1_alg».proof.Proof.KernelRun
import proofs.«120317_j21406117003578_1_alg».proof.Proof.Chain
import proofs.«120317_j21406117003578_1_alg».proof.Proof.RefRunP
import proofs.«120317_j21406117003578_1_alg».proof.Proof.RefEq
import proofs.«120317_j21406117003578_1_alg».proof.Proof.Spec

noncomputable section

namespace Cert.Proof

open Idealize.ShloMosaic Idealize.SL.Sem

/-- The three programs run, and leave their arguments as launched. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Both idealized programs end with the specification's network of the launched arguments in their result array. -/
theorem algebraic : Cert.algebraic_KernelIdeal_ReferenceIdeal := by
  intro m ρ m' ρ' _ hagree
  refine ⟨fun c => Cert.Spec.out (Cert.KernelIdeal.Hand.argX m c) (Cert.KernelIdeal.Hand.argE m c) (Cert.KernelIdeal.Hand.argW1 m c)
      (Cert.KernelIdeal.Hand.argB1 m c) (Cert.KernelIdeal.Hand.argW2 m c) (Cert.KernelIdeal.Hand.argB2 m c)
      (Cert.KernelIdeal.Hand.argWp m c) (Cert.KernelIdeal.Hand.argBp m c), ?_, ?_⟩
  · exact (θ_run Cert.KernelIdeal.defs _ _).mono
      (fun _ h c => ⟨(h c).1.trans (Cert.KernelIdeal.Hand.at11_v63 m ρ c), (h c).2⟩)
      (Cert.KernelIdeal.Hand.run_named (F := Ideal) m ρ)
  · refine (θ_run Cert.ReferenceIdeal.defs _ _).mono (fun _ h c => ⟨(h c).1.trans ?_, (h c).2⟩)
      (Cert.ReferenceIdeal.ValueP.run (F := Ideal) m' ρ')
    obtain ⟨a0, a1, a2, a3, a4, a5, a6, a7⟩ := hagree c
    rw [Cert.Hand.ref_eq, a0, a1, a2, a3, a4, a5, a6, a7]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
